-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x16 .f32) (main_arg4 : FVec F S16 .f32) (main_arg5 : FVec F S16x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x16 .f32 := Host.absf main_arg3
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000x1 : Shape := ⟨2, ![3200000, 1]⟩
abbrev S100000x16 : Shape := ⟨2, ![100000, 16]⟩
abbrev S4000x256 : Shape := ⟨2, ![4000, 256]⟩
abbrev S4000x16 : Shape := ⟨2, ![4000, 16]⟩
abbrev S_ : Shape := ⟨0, ![]⟩
abbrev S3200000x16 : Shape := ⟨2, ![3200000, 16]⟩
abbrev S1x16 : Shape := ⟨2, ![1, 16]⟩
abbrev S100000x40 : Shape := ⟨2, ![100000, 40]⟩
abbrev S4000x40 : Shape := ⟨2, ![4000, 40]⟩
abbrev S3200000x40 : Shape := ⟨2, ![3200000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 50
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S3200000x1, .f32⟩
  | .hbm, ⟨12, _⟩ => ⟨S100000x256, .bf16⟩
  | .hbm, ⟨13, _⟩ => ⟨S256x16, .bf16⟩
  | .hbm, ⟨14, _⟩ => ⟨S100000x16, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x16, .f32⟩
  | .hbm, ⟨24, _⟩ => ⟨S3200000x16, .f32⟩
  | .hbm, ⟨25, _⟩ => ⟨S3200000x16, .f32⟩
  | .hbm, ⟨26, _⟩ => ⟨S_, .f32⟩
  | .hbm, ⟨27, _⟩ => ⟨S100000x16, .f32⟩
  | .hbm, ⟨28, _⟩ => ⟨S3200000x1, .i32⟩
  | .hbm, ⟨29, _⟩ => ⟨S100000x16, .f32⟩
  | .hbm, ⟨30, _⟩ => ⟨S1x16, .f32⟩
  | .hbm, ⟨31, _⟩ => ⟨S16x40, .bf16⟩
  | .hbm, ⟨32, _⟩ => ⟨S100000x40, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x40, .f32⟩
  | .hbm, ⟨42, _⟩ => ⟨S3200000x40, .f32⟩
  | .hbm, ⟨43, _⟩ => ⟨S3200000x40, .f32⟩
  | .hbm, ⟨44, _⟩ => ⟨S_, .f32⟩
  | .hbm, ⟨45, _⟩ => ⟨S100000x40, .f32⟩
  | .hbm, ⟨46, _⟩ => ⟨S3200000x1, .i32⟩
  | .hbm, ⟨47, _⟩ => ⟨S100000x40, .f32⟩
  | .hbm, ⟨48, _⟩ => ⟨S1x40, .f32⟩
  | .hbm, ⟨49, _⟩ => ⟨S100000x40, .f32⟩
  | .local _ .vmem, ⟨0, _⟩ => ⟨S4000x256, .bf16⟩
  | .local _ .vmem, ⟨1, _⟩ => ⟨S4000x256, .bf16⟩
  | .local _ .vmem, ⟨2, _⟩ => ⟨S256x16, .bf16⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x40, .bf16⟩
  | .local _ .vmem, ⟨9, _⟩ => ⟨S4000x40, .f32⟩
  | .local _ .vmem, ⟨10, _⟩ => ⟨S4000x40, .f32⟩
  | .local _ .vmem, ⟨11, _⟩ => ⟨S4000x40, .f32⟩
  | .local _ .vmem, ⟨12, _⟩ => ⟨S4000x40, .f32⟩
  | .local _ .vmem, ⟨13, _⟩ => ⟨S1x40, .f32⟩
  | .local _ .vmem, ⟨14, _⟩ => ⟨S4000x40, .f32⟩
  | .local _ .vmem, ⟨15, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bitsLt_bf16_f32 : FTy.bits .bf16 < FTy.bits .f32
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S4000x16_S4000x16_0_0 : ∀ a, (![0, 0] : Fin 2 → Nat) a + S4000x16.size a ≤ S4000x16.size a
  h_S4000x16 : 0 < S4000x16.numel
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x40_S16x40_0_0 : ∀ a, (![0, 0] : Fin 2 → Nat) a + S16x40.size a ≤ S16x40.size a
  h_S16x40 : 0 < S16x40.numel
  shapeCasts_S16x40_S16x40 : S16x40.ShapeCasts S16x40
  inb_S4000x40_S4000x40_0_0 : ∀ a, (![0, 0] : Fin 2 → Nat) a + S4000x40.size a ≤ S4000x40.size a
  h_S4000x40 : 0 < S4000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  dot_S4000x256_S256x16_S4000x16_1_0_0_1_n_n_wf : DotDims.WF S4000x256 S256x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x40_S4000x40_1_0_0_1_n_n_wf : DotDims.WF S4000x16 S16x40 S4000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .bf16 = 32 ∨ (Rect.block (s := S100000x256) S4000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .bf16 = 32 ∨ (Rect.block (s := S256x16) S256x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .bf16 = 32 ∨ (Rect.block (s := S16x40) S16x40.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)

variable [Facts₀]

def dot_S4000x256_S256x16_S4000x16_1_0_0_1_n_n : DotDims S4000x256 S256x16 S4000x16 where
  lhsContracting := [1]
  rhsContracting := [0]
  lhsNonContracting := [0]
  rhsNonContracting := [1]
  lhsBatch := []
  rhsBatch := []
  wf := dot_S4000x256_S256x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_v5) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x16, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S3200000x1, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S1x16, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .f32⟩
  | .hbm, ⟨34, _⟩ => ⟨S100000x40, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x40, .f32⟩
  | .hbm, ⟨44, _⟩ => ⟨S3200000x1, .f32⟩
  | .hbm, ⟨45, _⟩ => ⟨S3200000x40, .f32⟩
  | .hbm, ⟨46, _⟩ => ⟨S3200000x40, .f32⟩
  | .hbm, ⟨47, _⟩ => ⟨S_, .f32⟩
  | .hbm, ⟨48, _⟩ => ⟨S100000x40, .f32⟩
  | .hbm, ⟨49, _⟩ => ⟨S3200000x1, .i32⟩
  | .hbm, ⟨50, _⟩ => ⟨S100000x40, .f32⟩
  | .hbm, ⟨51, _⟩ => ⟨S1x40, .f32⟩
  | .hbm, ⟨52, _⟩ => ⟨S100000x40, .f32⟩
  | .hbm, ⟨53, _⟩ => ⟨S100000x40, .f32⟩
  | .hbm, ⟨54, _⟩ => ⟨S_, .f32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x40, .f32⟩
  | .hbm, ⟨61, _⟩ => ⟨S100000x40, .f32⟩
  | .hbm, ⟨62, _⟩ => ⟨S100000x40, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x1, .f32⟩
  | .hbm, ⟨67, _⟩ => ⟨S100000x40, .f32⟩
  | .hbm, ⟨68, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_call1_cst_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_1 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_v39 : Ref sig .tc := ⟨.hbm, 68, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x16_S100000x16_1_0_0_1_n_n_wf : DotDims.WF S100000x256 S256x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.Spec.lean ====
/-
  The three dense stages of a two-layer graph convolution with a log-softmax head, each as ONE function of whole
  arrays, entry by entry, on the extended reals.

  * `dense1 x w`: the feature transform. Entry `(p, q)` is the product of row `p` of the node features `x` with
    column `q` of the weights `w`, a sum over the 256 input features.
  * `dense2 agg b w`: the hidden layer. Row `p` of the aggregated features `agg` gets the bias `b` added and is
    clamped below at zero (the rectifier); entry `(p, q)` is the product of that row with column `q` of `w`, a sum
    over the 16 hidden features.
  * `logSoftmaxRows agg b`: the head. Row `p` of `agg` plus the bias `b` is the row of logits `z`; with `μ` the
    largest logit of the row (the fold of `max` from the value the word `0xFF800000` denotes), entry `(p, q)` is
    `(z q - μ) - log (∑ c, exp (z c - μ))` (`rowLogSoftmax`, a function of one row).

  The zero the rectifier clamps at and the value the maximum starts from are kept as the words the programs print:
  the same word stands on both sides of every equation below and is never evaluated.
-/
import Idealize.ShloMosaic.PureOps.Ideal
import Idealize.ShloMosaic.Lib.ValueIdx

noncomputable section

namespace Cert.Gcn

open Idealize.ShloMosaic Idealize.ShloMosaic.ValueIdx

/-- The feature transform: `(x · w) (p, q) = ∑ k, x (p, k) * w (k, q)`. -/
def dense1 (x : (⟨2, ![100000, 256]⟩ : Shape).Idx → EReal) (w : (⟨2, ![256, 16]⟩ : Shape).Idx → EReal) :
    (⟨2, ![100000, 16]⟩ : Shape).Idx → EReal :=
  fun j => ∑ k : Fin 256, x (ix2 (j 0) k) * w (ix2 k (j 1))

/-- The hidden layer: `(relu (agg + b) · w) (p, q) = ∑ k, max (agg (p, k) + b k) 0 * w (k, q)`. -/
def dense2 (agg : (⟨2, ![100000, 16]⟩ : Shape).Idx → EReal) (b : Fin 16 → EReal)
    (w : (⟨2, ![16, 40]⟩ : Shape).Idx → EReal) : (⟨2, ![100000, 40]⟩ : Shape).Idx → EReal :=
  fun j => ∑ k : Fin 16, max (agg (ix2 (j 0) k) + b k) (Ideal.ofBits .f32 0x00000000#32) * w (ix2 k (j 1))

/-- Row `p` of the logits: the aggregated features plus the bias. -/
def logits (agg : (⟨2, ![100000, 40]⟩ : Shape).Idx → EReal) (b : Fin 40 → EReal) (p : Fin 100000) : Fin 40 → EReal :=
  fun c => agg (ix2 p c) + b c

/-- The log-softmax of ONE row of logits `z`, at column `q`: with `μ` the largest logit of the row (the fold of `max`
    from the value the word `0xFF800000` denotes), `(z q - μ) - log (∑ c, exp (z c - μ))`. -/
def rowLogSoftmax (z : Fin 40 → EReal) (q : Fin 40) : EReal :=
  (z q - (Finset.univ : Finset (Fin 40)).fold max (Ideal.ofBits .f32 0xFF800000#32) z)
    - Ideal.log (∑ c : Fin 40, Ideal.exp (z c - (Finset.univ : Finset (Fin 40)).fold max (Ideal.ofBits .f32 0xFF800000#32) z))

/-- The head: the log-softmax of each row of logits. -/
def logSoftmaxRows (agg : (⟨2, ![100000, 40]⟩ : Shape).Idx → EReal) (b : Fin 40 → EReal) :
    (⟨2, ![100000, 40]⟩ : Shape).Idx → EReal :=
  fun j => rowLogSoftmax (logits agg b (j 0)) (j 1)

/-- A maximum against the value a fold of `max` started from changes nothing: the fold is at least its start. -/
theorem max_start_fold {n : ℕ} (s : EReal) (f : Fin n → EReal) :
    max s ((Finset.univ : Finset (Fin n)).fold max s f) = (Finset.univ : Finset (Fin n)).fold max s f :=
  max_eq_right ((Finset.le_fold_max s).mpr (Or.inl le_rfl))

end Cert.Gcn

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.Region0.lean ====
/-
  The first kernel region as a function of whole arrays.

  The region walks 25 blocks of 4000 rows. At each block it multiplies the 4000 rows of the left operand it has
  fetched by the whole right operand (a 256 by 16 matrix, fetched once) into a zero accumulator and writes the
  4000 by 16 product back. Entry (p, q) of a block's product is the sum over k of the block's entry (p, k) times
  the right operand's entry (k, q); row p of block t is row 4000 t + p of the array; and the 25 blocks tile the
  100000 rows. So the result array ends holding the feature transform `dense1` of the two arrays the region
  finds on entry, whatever those are.
-/
import proofs.«114106_j53712861003990_2_alg».proof.Proof.Gen.KernelIdeal.Frame
import proofs.«114106_j53712861003990_2_alg».proof.Proof.Spec
import proofs.«114106_j53712861003990_2_alg».proof.Proof.LibRowColDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The left operand's index keeps the output's row, whatever the contracted coordinate. -/
theorem lhs_row (j : S4000x16.Idx) (q : dot_S4000x256_S256x16_S4000x16_1_0_0_1_n_n.contr.Idx) :
    (dot_S4000x256_S256x16_S4000x16_1_0_0_1_n_n.lhsIdx j q 0).val = (j 0).val := by
  unfold DotDims.lhsIdx
  rw [dif_neg (show ¬(0 : Fin S4000x256.rank) ∈ dot_S4000x256_S256x16_S4000x16_1_0_0_1_n_n.lhsBatch by decide),
    dif_pos (show (0 : Fin S4000x256.rank) ∈ dot_S4000x256_S256x16_S4000x16_1_0_0_1_n_n.lhsNonContracting by decide)]
  rfl

/-- The right operand's index keeps the output's column, whatever the contracted coordinate. -/
theorem rhs_col (j : S4000x16.Idx) (q : dot_S4000x256_S256x16_S4000x16_1_0_0_1_n_n.contr.Idx) :
    (dot_S4000x256_S256x16_S4000x16_1_0_0_1_n_n.rhsIdx j q 1).val = (j 1).val := by
  unfold DotDims.rhsIdx
  rw [dif_neg (show ¬(1 : Fin S256x16.rank) ∈ dot_S4000x256_S256x16_S4000x16_1_0_0_1_n_n.rhsBatch by decide),
    dif_pos (show (1 : Fin S256x16.rank) ∈ dot_S4000x256_S256x16_S4000x16_1_0_0_1_n_n.rhsNonContracting by decide)]
  rfl

/-- What the body stores, entry by entry: row `j 0` of the fetched left block times column `j 1` of the right
    operand. -/
theorem stored_apply (x0 : Vec Ideal S4000x256 .bf16) (x1 : Vec Ideal S256x16 .bf16) (j : S4000x16.Idx) :
    k0_pay1 (F := Ideal) x0 x1 j = ∑ k : Fin 256, x0 (ix2 (j 0) k) * x1 (ix2 k (j 1)) := by
  unfold k0_pay1
  simp only [shapeCast_self]
  exact Cert.RowColDot.matmul_rowcol dot_S4000x256_S256x16_S4000x16_1_0_0_1_n_n rfl rfl rfl rfl lhs_row rhs_col none x0 x1 j

/-- The printed index maps over the grid: the row-tiled windows sit at block `t`, the right operand at block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `x 0` of the left operand's block `t` is row `4000 t + x 0` of the array. -/
theorem left_block_apply (c : Dev nD) (t : Fin cfg0.N) (x : S4000x256.Idx) (i : S100000x256.Idx)
    (h0 : (i 0).val = t.val * 4000 + (x 0).val) (h1 : (i 1).val = (x 1).val) :
    (iblk0 V c 0 t : Vec Ideal S4000x256 .bf16) x = (V c main_v5 : S100000x256.Idx → EReal) i := by
  obtain ⟨e0, e1, -, -, -, -⟩ := block_indices t
  unfold iblk0
  rw [View.read_apply]
  show V c main_v5 _ = V c main_v5 _
  refine congrArg _ ?_
  funext a
  apply Fin.ext
  match a with
  | ⟨0, _⟩ => show win0_0.index t 0 * 4000 + 1 * (x 0).val = (i 0).val; rw [e0, h0]; omega
  | ⟨1, _⟩ => show win0_0.index t 1 * 256 + 1 * (x 1).val = (i 1).val; rw [e1, h1]; omega

/-- The right operand's one block is the whole array. -/
theorem right_block_apply (c : Dev nD) (t : Fin cfg0.N) (x : S256x16.Idx) :
    (iblk0 V c 1 t : Vec Ideal S256x16 .bf16) x = (V c main_v6 : S256x16.Idx → EReal) x := by
  obtain ⟨-, -, e2, e3, -, -⟩ := block_indices t
  unfold iblk0
  rw [View.read_apply]
  show V c main_v6 _ = V c main_v6 _
  refine congrArg _ ?_
  funext a
  apply Fin.ext
  match a with
  | ⟨0, _⟩ => show win0_1.index t 0 * 256 + 1 * (x 0).val = (x 0).val; rw [e2]; omega
  | ⟨1, _⟩ => show win0_1.index t 1 * 16 + 1 * (x 1).val = (x 1).val; rw [e3]; omega

/-- What point `t` writes back is block `t` of the feature transform of the entry arrays. -/
theorem flushed_eq (c : Dev nD) (t : Fin cfg0.N) :
    (dat0 V c).flushed 2 t
      = ((cfg0.win 2).blk t).view.read (Elt Ideal) (Cert.Gcn.dense1 (V c main_v5) (V c main_v6)) := by
  show (cfg0.win 2).cut (grid0.coords t) ((dat0 V c).after 2 t) = _
  rw [after0_2]
  unfold out0_2
  rw [View.canon_unit_zero zero_offsets]
  simp only [View.ld_unit_zero (S := S4000x256) zero_offsets, View.ld_unit_zero (S := S256x16) zero_offsets]
  obtain ⟨-, -, -, -, e4, e5⟩ := block_indices t
  funext y
  show k0_pay1 (F := Ideal) (iblk0 V c 0 t) (iblk0 V c 1 t) y
    = Cert.Gcn.dense1 (V c main_v5) (V c main_v6) (((cfg0.win 2).blk t).view.emb y)
  refine (stored_apply (iblk0 V c 0 t) (iblk0 V c 1 t) y).trans ?_
  unfold Cert.Gcn.dense1
  refine Finset.sum_congr rfl fun k _ => ?_
  have hr : ((((cfg0.win 2).blk t).view.emb y) 0).val = t.val * 4000 + (y 0).val := by
    show win0_2.index t 0 * 4000 + 1 * (y 0).val = _; rw [e4]; omega
  have hc : ((((cfg0.win 2).blk t).view.emb y) 1).val = (y 1).val := by
    show win0_2.index t 1 * 16 + 1 * (y 1).val = _; rw [e5]; omega
  refine congrArg₂ (· * ·) ?_ ?_
  · exact left_block_apply V c t (ix2 (y 0) k) (ix2 ((((cfg0.win 2).blk t).view.emb y) 0) k) hr rfl
  · refine (right_block_apply V c t (ix2 k (y 1))).trans (congrArg _ ?_)
    funext a
    apply Fin.ext
    match a with
    | ⟨0, _⟩ => rfl
    | ⟨1, _⟩ => exact hc.symm

/-- An index of the result array lies in block `t` exactly when each coordinate lies in the block's range. -/
theorem mem_block (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_v7).slice (win0_2.rect t)).set ↔ _
  rw [View.set_slice_whole, Rect.mem_set_unit]
  exact Iff.rfl

/-- The 25 blocks tile the rows: row `r` lies in block `r / 4000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  refine ⟨⟨(i 0).val / 4000, by rw [hN]; omega⟩, flush0_2 _, ?_⟩
  rw [mem_block]
  obtain ⟨-, -, -, -, e4, e5⟩ := block_indices ⟨(i 0).val / 4000, by rw [hN]; omega⟩
  intro a
  match a with
  | ⟨0, _⟩ =>
    show win0_2.index _ 0 * 4000 ≤ (i 0).val ∧ (i 0).val < win0_2.index _ 0 * 4000 + 4000
    rw [e4]; show (i 0).val / 4000 * 4000 ≤ (i 0).val ∧ (i 0).val < (i 0).val / 4000 * 4000 + 4000; omega
  | ⟨1, _⟩ =>
    show win0_2.index _ 1 * 16 ≤ (i 1).val ∧ (i 1).val < win0_2.index _ 1 * 16 + 16
    rw [e5]; omega

/-- The result array after the region: the feature transform of the two arrays the region found on entry. -/
theorem final (c : Dev nD) :
    (dat0 V c).arrAt 2 cfg0.N = Cert.Gcn.dense1 (V c main_v5) (V c main_v6) :=
  (dat0 V c).arrAt_eq_of_cover 2 (Cert.Gcn.dense1 (V c main_v5) (V c main_v6)) (fun t _ => flushed_eq V c t) covered

end Cert.KernelIdeal.Stage1

end
-- ==== Proof.Region1.lean ====
/-
  The second kernel region as a function of whole arrays.

  The region walks 25 blocks of 4000 rows of the aggregated features. At each block it adds the bias row (a 1 by 16
  array, fetched once and repeated down the rows), clamps every entry below at zero, and multiplies the 4000 by 16
  result by the whole 16 by 40 weight matrix (fetched once) into a zero accumulator; the 4000 by 40 product is
  written back. Entry (p, q) of a block's product is the sum over k of `max (a (p, k) + b k) 0` times the weight's
  entry (k, q); row p of block t is row 4000 t + p of the array; the 25 blocks tile the 100000 rows. So the result
  array ends holding the hidden layer `dense2` of the three arrays the region finds on entry.
-/
import proofs.«114106_j53712861003990_2_alg».proof.Proof.Gen.KernelIdeal.Frame
import proofs.«114106_j53712861003990_2_alg».proof.Proof.Spec
import proofs.«114106_j53712861003990_2_alg».proof.Proof.LibRowColDot
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Stage2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The left operand's index keeps the output's row, whatever the contracted coordinate. -/
theorem lhs_row (j : S4000x40.Idx) (q : dot_S4000x16_S16x40_S4000x40_1_0_0_1_n_n.contr.Idx) :
    (dot_S4000x16_S16x40_S4000x40_1_0_0_1_n_n.lhsIdx j q 0).val = (j 0).val := by
  unfold DotDims.lhsIdx
  rw [dif_neg (show ¬(0 : Fin S4000x16.rank) ∈ dot_S4000x16_S16x40_S4000x40_1_0_0_1_n_n.lhsBatch by decide),
    dif_pos (show (0 : Fin S4000x16.rank) ∈ dot_S4000x16_S16x40_S4000x40_1_0_0_1_n_n.lhsNonContracting by decide)]
  rfl

/-- The right operand's index keeps the output's column, whatever the contracted coordinate. -/
theorem rhs_col (j : S4000x40.Idx) (q : dot_S4000x16_S16x40_S4000x40_1_0_0_1_n_n.contr.Idx) :
    (dot_S4000x16_S16x40_S4000x40_1_0_0_1_n_n.rhsIdx j q 1).val = (j 1).val := by
  unfold DotDims.rhsIdx
  rw [dif_neg (show ¬(1 : Fin S16x40.rank) ∈ dot_S4000x16_S16x40_S4000x40_1_0_0_1_n_n.rhsBatch by decide),
    dif_pos (show (1 : Fin S16x40.rank) ∈ dot_S4000x16_S16x40_S4000x40_1_0_0_1_n_n.rhsNonContracting by decide)]
  rfl

/-- What the body stores, entry by entry: the biased and clamped row `j 0` of the fetched block times column
    `j 1` of the weights. -/
theorem stored_apply (x0 : Vec Ideal S4000x16 .f32) (x1 : Vec Ideal S1x16 .f32) (x2 : Vec Ideal S16x40 .bf16)
    (j : S4000x40.Idx) :
    k1_pay1 (F := Ideal) x0 x1 x2 j
      = ∑ k : Fin 16, max (x0 (ix2 (j 0) k) + x1 (ix2 (0 : Fin 1) k)) (Ideal.ofBits .f32 0x00000000#32)
          * x2 (ix2 k (j 1)) := by
  obtain ⟨p, q, rfl⟩ : ∃ (p : Fin 4000) (q : Fin 40), j = ix2 p q := ⟨j 0, j 1, eq_ix2 j⟩
  show k1_pay1 (F := Ideal) x0 x1 x2 (ix2 p q)
    = ∑ k : Fin 16, max (x0 (ix2 p k) + x1 (ix2 (0 : Fin 1) k)) (Ideal.ofBits .f32 0x00000000#32) * x2 (ix2 k q)
  unfold k1_pay1
  simp only [shapeCast_self]
  refine (Cert.RowColDot.matmul_rowcol (φ₁ := .bf16) (φ₂ := .bf16) dot_S4000x16_S16x40_S4000x40_1_0_0_1_n_n rfl rfl rfl rfl
    lhs_row rhs_col none _ x2 (ix2 p q)).trans ?_
  refine Finset.sum_congr rfl fun k _ => ?_
  exact congrArg (fun u => max (x0 (ix2 p k) + u) (Ideal.ofBits .f32 0x00000000#32) * x2 (ix2 k q))
    (broadcastTo_1b_ab_apply x1 broadcasts_S1x16_S4000x16 p k)

/-- The printed index maps over the grid: the row-tiled windows sit at block `t`, the bias and the weights at
    block 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `x 0` of the aggregated features' block `t` is row `4000 t + x 0` of the array. -/
theorem agg_block_apply (c : Dev nD) (t : Fin cfg1.N) (x : S4000x16.Idx) (i : S100000x16.Idx)
    (h0 : (i 0).val = t.val * 4000 + (x 0).val) (h1 : (i 1).val = (x 1).val) :
    (iblk1 V c 0 t : Vec Ideal S4000x16 .f32) x = (V c main_v19 : S100000x16.Idx → EReal) i := by
  obtain ⟨e0, e1, -, -, -, -, -, -⟩ := block_indices t
  unfold iblk1
  rw [View.read_apply]
  show V c main_v19 _ = V c main_v19 _
  refine congrArg _ ?_
  funext a
  apply Fin.ext
  match a with
  | ⟨0, _⟩ => show win1_0.index t 0 * 4000 + 1 * (x 0).val = (i 0).val; rw [e0, h0]; omega
  | ⟨1, _⟩ => show win1_0.index t 1 * 16 + 1 * (x 1).val = (i 1).val; rw [e1, h1]; omega

/-- The bias row's one block is the whole array. -/
theorem bias_block_apply (c : Dev nD) (t : Fin cfg1.N) (x : S1x16.Idx) :
    (iblk1 V c 1 t : Vec Ideal S1x16 .f32) x = (V c main_v20 : S1x16.Idx → EReal) x := by
  obtain ⟨-, -, e2, e3, -, -, -, -⟩ := block_indices t
  unfold iblk1
  rw [View.read_apply]
  show V c main_v20 _ = V c main_v20 _
  refine congrArg _ ?_
  funext a
  apply Fin.ext
  match a with
  | ⟨0, _⟩ => show win1_1.index t 0 * 1 + 1 * (x 0).val = (x 0).val; rw [e2]; omega
  | ⟨1, _⟩ => show win1_1.index t 1 * 16 + 1 * (x 1).val = (x 1).val; rw [e3]; omega

/-- The weights' one block is the whole array. -/
theorem weight_block_apply (c : Dev nD) (t : Fin cfg1.N) (x : S16x40.Idx) :
    (iblk1 V c 2 t : Vec Ideal S16x40 .bf16) x = (V c main_v21 : S16x40.Idx → EReal) x := by
  obtain ⟨-, -, -, -, e4, e5, -, -⟩ := block_indices t
  unfold iblk1
  rw [View.read_apply]
  show V c main_v21 _ = V c main_v21 _
  refine congrArg _ ?_
  funext a
  apply Fin.ext
  match a with
  | ⟨0, _⟩ => show win1_2.index t 0 * 16 + 1 * (x 0).val = (x 0).val; rw [e4]; omega
  | ⟨1, _⟩ => show win1_2.index t 1 * 40 + 1 * (x 1).val = (x 1).val; rw [e5]; omega

/-- What point `t` writes back is block `t` of the hidden layer of the entry arrays. -/
theorem flushed_eq (c : Dev nD) (t : Fin cfg1.N) :
    (dat1 V c).flushed 3 t
      = ((cfg1.win 3).blk t).view.read (Elt Ideal)
          (Cert.Gcn.dense2 (V c main_v19) (fun k => (V c main_v20 : S1x16.Idx → EReal) (ix2 (0 : Fin 1) k)) (V c main_v21)) := by
  show (cfg1.win 3).cut (grid1.coords t) ((dat1 V c).after 3 t) = _
  rw [after1_3]
  unfold out1_3
  rw [View.canon_unit_zero zero_offsets]
  simp only [View.ld_unit_zero (S := S4000x16) zero_offsets, View.ld_unit_zero (S := S1x16) zero_offsets,
    View.ld_unit_zero (S := S16x40) zero_offsets]
  obtain ⟨-, -, -, -, -, -, e6, e7⟩ := block_indices t
  funext y
  show k1_pay1 (F := Ideal) (iblk1 V c 0 t) (iblk1 V c 1 t) (iblk1 V c 2 t) y
    = Cert.Gcn.dense2 (V c main_v19) (fun k => (V c main_v20 : S1x16.Idx → EReal) (ix2 (0 : Fin 1) k)) (V c main_v21)
        (((cfg1.win 3).blk t).view.emb y)
  refine (stored_apply (iblk1 V c 0 t) (iblk1 V c 1 t) (iblk1 V c 2 t) y).trans ?_
  unfold Cert.Gcn.dense2
  refine Finset.sum_congr rfl fun k _ => ?_
  have hr : ((((cfg1.win 3).blk t).view.emb y) 0).val = t.val * 4000 + (y 0).val := by
    show win1_3.index t 0 * 4000 + 1 * (y 0).val = _; rw [e6]; omega
  have hc : ((((cfg1.win 3).blk t).view.emb y) 1).val = (y 1).val := by
    show win1_3.index t 1 * 40 + 1 * (y 1).val = _; rw [e7]; omega
  refine congrArg₂ (· * ·) (congrArg₂ (fun u v => max (u + v) (Ideal.ofBits .f32 0x00000000#32)) ?_ ?_) ?_
  · exact agg_block_apply V c t (ix2 (y 0) k) (ix2 ((((cfg1.win 3).blk t).view.emb y) 0) k) hr rfl
  · exact bias_block_apply V c t (ix2 (0 : Fin 1) k)
  · refine (weight_block_apply V c t (ix2 k (y 1))).trans (congrArg _ ?_)
    funext a
    apply Fin.ext
    match a with
    | ⟨0, _⟩ => rfl
    | ⟨1, _⟩ => exact hc.symm

/-- An index of the result array lies in block `t` exactly when each coordinate lies in the block's range. -/
theorem mem_block (t : Fin cfg1.N) (i : S100000x40.Idx) :
    i ∈ ((cfg1.win 3).blk t).view.set ↔ ∀ a : Fin 2, win1_3.index t a * S4000x40.size a ≤ (i a).val
      ∧ (i a).val < win1_3.index t a * S4000x40.size a + S4000x40.size a := by
  show i ∈ ((View.whole main_v22).slice (win1_3.rect t)).set ↔ _
  rw [View.set_slice_whole, Rect.mem_set_unit]
  exact Iff.rfl

/-- The 25 blocks tile the rows: row `r` lies in block `r / 4000`. -/
theorem covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 25 := N_1
  refine ⟨⟨(i 0).val / 4000, by rw [hN]; omega⟩, flush1_3 _, ?_⟩
  rw [mem_block]
  obtain ⟨-, -, -, -, -, -, e6, e7⟩ := block_indices ⟨(i 0).val / 4000, by rw [hN]; omega⟩
  intro a
  match a with
  | ⟨0, _⟩ =>
    show win1_3.index _ 0 * 4000 ≤ (i 0).val ∧ (i 0).val < win1_3.index _ 0 * 4000 + 4000
    rw [e6]; show (i 0).val / 4000 * 4000 ≤ (i 0).val ∧ (i 0).val < (i 0).val / 4000 * 4000 + 4000; omega
  | ⟨1, _⟩ =>
    show win1_3.index _ 1 * 40 ≤ (i 1).val ∧ (i 1).val < win1_3.index _ 1 * 40 + 40
    rw [e7]; omega

/-- The result array after the region: the hidden layer of the three arrays the region found on entry. -/
theorem final (c : Dev nD) :
    (dat1 V c).arrAt 3 cfg1.N
      = Cert.Gcn.dense2 (V c main_v19) (fun k => (V c main_v20 : S1x16.Idx → EReal) (ix2 (0 : Fin 1) k)) (V c main_v21) :=
  (dat1 V c).arrAt_eq_of_cover 3 _ (fun t _ => flushed_eq V c t) covered

end Cert.KernelIdeal.Stage2

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.Region2.lean ====
/-
  The third kernel region as a function of whole arrays.

  The region walks 25 blocks of 4000 rows of the aggregated class scores. At each block it adds the bias row (a 1 by
  40 array, fetched once and repeated down the rows) to get the logits, takes each row's maximum, subtracts it,
  exponentiates, sums each row, and stores the shifted logits less the logarithm of their row's sum. The row
  maximum and the row sum are taken over the 40 columns, kept as a column and repeated along the row; read at
  (p, q) they depend on row p only. So entry (p, q) of a block's result is the log-softmax of row p of the block's
  logits at column q; row p of block t is row 4000 t + p of the array; the 25 blocks tile the 100000 rows. The
  result array ends holding the head `logSoftmaxRows` of the two arrays the region finds on entry.
-/
import proofs.«114106_j53712861003990_2_alg».proof.Proof.Gen.KernelIdeal.Frame
import proofs.«114106_j53712861003990_2_alg».proof.Proof.Spec
import proofs.«114106_j53712861003990_2_alg».proof.Proof.LibKeepdims
import proofs.«114106_j53712861003990_2_alg».proof.Proof.LibColumnBroadcast
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Stage3

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

section Rows

variable (z : FVec Ideal S4000x40 .f32) (p : Fin 4000)

/-- The row maxima of a block of logits, kept as a column and repeated along each row. -/
abbrev maxCols : FVec Ideal S4000x40 .f32 :=
  broadcastTo S4000x40
    (shapeCast S4000x1 (multiReduction .maximumf [1] S4000 z 0xFF800000#32 reduces_S4000x40_S4000 (.inl rfl) rfl)
      shapeCasts_S4000_S4000x1) broadcasts_S4000x1_S4000x40

/-- Read at (p, c) the repeated column of maxima is row p's maximum, whatever the column c. -/
theorem maxCols_apply (c : Fin 40) :
    maxCols z (ix2 p c)
      = (Finset.univ : Finset (Fin 40)).fold max (Ideal.ofBits .f32 0xFF800000#32) (fun k => z (ix2 p k)) :=
  (Cert.WeightUpdate.Layout.broadcastTo_a1_ab_apply _ broadcasts_S4000x1_S4000x40 p c).trans
    ((Cert.MemAttn.Layout.shapeCast_a_a1_apply _ shapeCasts_S4000_S4000x1 p 0).trans
      (Cert.MemAttn.Layout.multiReduction_maximumf_row z _ reduces_S4000x40_S4000 (.inl rfl) rfl p))

/-- The logarithm of a per-row value kept as a column and repeated along each row, read at (p, c): the logarithm of
    row p's value. -/
theorem logCols_apply (w : FVec Ideal S4000 .f32) (c : Fin 40) :
    broadcastTo S4000x40 (log (shapeCast S4000x1 w shapeCasts_S4000_S4000x1)) broadcasts_S4000x1_S4000x40 (ix2 p c)
      = Ideal.log (w (ix1 p)) :=
  (Cert.WeightUpdate.Layout.broadcastTo_a1_ab_apply _ broadcasts_S4000x1_S4000x40 p c).trans
    (congrArg Ideal.log (Cert.MemAttn.Layout.shapeCast_a_a1_apply w shapeCasts_S4000_S4000x1 p 0))

/-- The body's arithmetic on a block of logits, read at (p, q): the log-softmax of row p at column q. -/
theorem logSoftmax_apply (q : Fin 40) :
    subf (subf z (maxCols z))
        (broadcastTo S4000x40
          (log (shapeCast S4000x1
            (multiReduction .add [1] S4000 (exp (subf z (maxCols z))) 0x00000000#32 reduces_S4000x40_S4000 (.inl rfl) rfl)
            shapeCasts_S4000_S4000x1)) broadcasts_S4000x1_S4000x40) (ix2 p q)
      = Cert.Gcn.rowLogSoftmax (fun k => z (ix2 p k)) q := by
  show (z (ix2 p q) - maxCols z (ix2 p q)) - broadcastTo S4000x40 _ broadcasts_S4000x1_S4000x40 (ix2 p q) = _
  rw [maxCols_apply z p q, logCols_apply p _ q]
  unfold Cert.Gcn.rowLogSoftmax
  refine congrArg (fun s => (z (ix2 p q) - (Finset.univ : Finset (Fin 40)).fold max (Ideal.ofBits .f32 0xFF800000#32)
    (fun k => z (ix2 p k))) - Ideal.log s) ?_
  refine (Cert.MemAttn.Layout.multiReduction_add_row _ _ reduces_S4000x40_S4000 (.inl rfl) rfl p).trans ?_
  refine Finset.sum_congr rfl fun c _ => ?_
  show Ideal.exp (z (ix2 p c) - maxCols z (ix2 p c)) = _
  rw [maxCols_apply z p c]

end Rows

/-- What the body stores, entry by entry: the log-softmax of row `j 0` of the fetched block plus the bias row, at
    column `j 1`. -/
theorem stored_apply (x0 : Vec Ideal S4000x40 .f32) (x1 : Vec Ideal S1x40 .f32) (j : S4000x40.Idx) :
    k2_pay1 (F := Ideal) x0 x1 j
      = Cert.Gcn.rowLogSoftmax (fun k => x0 (ix2 (j 0) k) + x1 (ix2 (0 : Fin 1) k)) (j 1) := by
  obtain ⟨p, q, rfl⟩ : ∃ (p : Fin 4000) (q : Fin 40), j = ix2 p q := ⟨j 0, j 1, eq_ix2 j⟩
  show k2_pay1 (F := Ideal) x0 x1 (ix2 p q)
    = Cert.Gcn.rowLogSoftmax (fun k => x0 (ix2 p k) + x1 (ix2 (0 : Fin 1) k)) q
  unfold k2_pay1
  simp only [shapeCast_self]
  refine (logSoftmax_apply (addf x0 (broadcastTo S4000x40 x1 broadcasts_S1x40_S4000x40)) p q).trans ?_
  refine congrArg (fun f => Cert.Gcn.rowLogSoftmax f q) (funext fun k => ?_)
  exact congrArg (fun u => x0 (ix2 p k) + u) (broadcastTo_1b_ab_apply x1 broadcasts_S1x40_S4000x40 p k)

/-- The printed index maps over the grid: the row-tiled windows sit at block `t`, the bias at block 0. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `x 0` of the aggregated scores' block `t` is row `4000 t + x 0` of the array. -/
theorem agg_block_apply (c : Dev nD) (t : Fin cfg2.N) (x : S4000x40.Idx) (i : S100000x40.Idx)
    (h0 : (i 0).val = t.val * 4000 + (x 0).val) (h1 : (i 1).val = (x 1).val) :
    (iblk2 V c 0 t : Vec Ideal S4000x40 .f32) x = (V c main_v34 : S100000x40.Idx → EReal) i := by
  obtain ⟨e0, e1, -, -, -, -⟩ := block_indices t
  unfold iblk2
  rw [View.read_apply]
  show V c main_v34 _ = V c main_v34 _
  refine congrArg _ ?_
  funext a
  apply Fin.ext
  match a with
  | ⟨0, _⟩ => show win2_0.index t 0 * 4000 + 1 * (x 0).val = (i 0).val; rw [e0, h0]; omega
  | ⟨1, _⟩ => show win2_0.index t 1 * 40 + 1 * (x 1).val = (i 1).val; rw [e1, h1]; omega

/-- The bias row's one block is the whole array. -/
theorem bias_block_apply (c : Dev nD) (t : Fin cfg2.N) (x : S1x40.Idx) :
    (iblk2 V c 1 t : Vec Ideal S1x40 .f32) x = (V c main_v35 : S1x40.Idx → EReal) x := by
  obtain ⟨-, -, e2, e3, -, -⟩ := block_indices t
  unfold iblk2
  rw [View.read_apply]
  show V c main_v35 _ = V c main_v35 _
  refine congrArg _ ?_
  funext a
  apply Fin.ext
  match a with
  | ⟨0, _⟩ => show win2_1.index t 0 * 1 + 1 * (x 0).val = (x 0).val; rw [e2]; omega
  | ⟨1, _⟩ => show win2_1.index t 1 * 40 + 1 * (x 1).val = (x 1).val; rw [e3]; omega

/-- What point `t` writes back is block `t` of the head of the entry arrays. -/
theorem flushed_eq (c : Dev nD) (t : Fin cfg2.N) :
    (dat2 V c).flushed 2 t
      = ((cfg2.win 2).blk t).view.read (Elt Ideal)
          (Cert.Gcn.logSoftmaxRows (V c main_v34) (fun k => (V c main_v35 : S1x40.Idx → EReal) (ix2 (0 : Fin 1) k))) := by
  show (cfg2.win 2).cut (grid2.coords t) ((dat2 V c).after 2 t) = _
  rw [after2_2]
  unfold out2_2
  rw [View.canon_unit_zero zero_offsets]
  simp only [View.ld_unit_zero (S := S4000x40) zero_offsets, View.ld_unit_zero (S := S1x40) zero_offsets]
  obtain ⟨-, -, -, -, e4, e5⟩ := block_indices t
  funext y
  show k2_pay1 (F := Ideal) (iblk2 V c 0 t) (iblk2 V c 1 t) y
    = Cert.Gcn.logSoftmaxRows (V c main_v34) (fun k => (V c main_v35 : S1x40.Idx → EReal) (ix2 (0 : Fin 1) k))
        (((cfg2.win 2).blk t).view.emb y)
  refine (stored_apply (iblk2 V c 0 t) (iblk2 V c 1 t) y).trans ?_
  unfold Cert.Gcn.logSoftmaxRows Cert.Gcn.logits
  have hr : ((((cfg2.win 2).blk t).view.emb y) 0).val = t.val * 4000 + (y 0).val := by
    show win2_2.index t 0 * 4000 + 1 * (y 0).val = _; rw [e4]; omega
  have hc : ((((cfg2.win 2).blk t).view.emb y) 1).val = (y 1).val := by
    show win2_2.index t 1 * 40 + 1 * (y 1).val = _; rw [e5]; omega
  refine congrArg₂ Cert.Gcn.rowLogSoftmax (funext fun k => ?_) (Fin.ext hc.symm)
  refine congrArg₂ (· + ·) ?_ ?_
  · exact agg_block_apply V c t (ix2 (y 0) k) (ix2 ((((cfg2.win 2).blk t).view.emb y) 0) k) hr rfl
  · exact bias_block_apply V c t (ix2 (0 : Fin 1) k)

/-- An index of the result array lies in block `t` exactly when each coordinate lies in the block's range. -/
theorem mem_block (t : Fin cfg2.N) (i : S100000x40.Idx) :
    i ∈ ((cfg2.win 2).blk t).view.set ↔ ∀ a : Fin 2, win2_2.index t a * S4000x40.size a ≤ (i a).val
      ∧ (i a).val < win2_2.index t a * S4000x40.size a + S4000x40.size a := by
  show i ∈ ((View.whole main_v36).slice (win2_2.rect t)).set ↔ _
  rw [View.set_slice_whole, Rect.mem_set_unit]
  exact Iff.rfl

/-- The 25 blocks tile the rows: row `r` lies in block `r / 4000`. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 25 := N_2
  refine ⟨⟨(i 0).val / 4000, by rw [hN]; omega⟩, flush2_2 _, ?_⟩
  rw [mem_block]
  obtain ⟨-, -, -, -, e4, e5⟩ := block_indices ⟨(i 0).val / 4000, by rw [hN]; omega⟩
  intro a
  match a with
  | ⟨0, _⟩ =>
    show win2_2.index _ 0 * 4000 ≤ (i 0).val ∧ (i 0).val < win2_2.index _ 0 * 4000 + 4000
    rw [e4]; show (i 0).val / 4000 * 4000 ≤ (i 0).val ∧ (i 0).val < (i 0).val / 4000 * 4000 + 4000; omega
  | ⟨1, _⟩ =>
    show win2_2.index _ 1 * 40 ≤ (i 1).val ∧ (i 1).val < win2_2.index _ 1 * 40 + 40
    rw [e5]; omega

/-- The result array after the region: the head of the two arrays the region found on entry. -/
theorem final (c : Dev nD) :
    (dat2 V c).arrAt 2 cfg2.N
      = Cert.Gcn.logSoftmaxRows (V c main_v34) (fun k => (V c main_v35 : S1x40.Idx → EReal) (ix2 (0 : Fin 1) k)) :=
  (dat2 V c).arrAt_eq_of_cover 2 _ (fun t _ => flushed_eq V c t) covered

end Cert.KernelIdeal.Stage3

end
-- ==== Proof.Glue.lean ====
/-
  The message-passing step, as one function of arrays.

  Both programs pass features along the edges of the graph in the same way: every edge reads the feature row of its
  source node, scales it by the edge's weight, and adds it into the row of its destination node, starting from zero.
  The edge list is a 2 by 3200000 array of node numbers: row 0 holds the sources, row 1 the destinations; a source
  number below zero counts from the end (the node count is added). `aggregate16` and `aggregate40` are this step on
  feature rows of width 16 and 40, written with the very operations the printed programs use, so that each program's
  stretch of host operations is one of them applied to the arrays it reads.
-/
import proofs.«114106_j53712861003990_2_alg».proof.Proof.Gen.KernelIdeal
import proofs.«114106_j53712861003990_2_alg».proof.Proof.Spec

noncomputable section

namespace Cert.KernelIdeal.Glue

open Idealize.ShloMosaic Cert.KernelIdeal Cert.KernelIdeal.Facts₀ Cert.KernelIdeal.Facts

variable {F : FTy → Type} [FloatOps F]

/-- Row 0 of the edge list: the source node of every edge. -/
def srcNodes (ei : (⟨S2x3200000, .i32⟩ : BufTy).Contents (Elt F)) : (⟨S3200000, .i32⟩ : BufTy).Contents (Elt F) :=
  shapeCast S3200000 (extractStridedSlice S1x3200000 ![0, 0] ei slices_S2x3200000_S1x3200000_0_0)
    shapeCasts_S1x3200000_S3200000

/-- Row 1 of the edge list: the destination node of every edge. -/
def dstNodes (ei : (⟨S2x3200000, .i32⟩ : BufTy).Contents (Elt F)) : (⟨S3200000, .i32⟩ : BufTy).Contents (Elt F) :=
  shapeCast S3200000 (extractStridedSlice S1x3200000 ![1, 0] ei slices_S2x3200000_S1x3200000_1_0)
    shapeCasts_S1x3200000_S3200000

/-- The row each edge reads: its source node, with the node count added when the number is below zero, as a column
    of start indices. -/
def readRows (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The edge weights as a column. -/
def weightCol (ew : (⟨S3200000, .f32⟩ : BufTy).Contents (Elt F)) : (⟨S3200000x1, .f32⟩ : BufTy).Contents (Elt F) :=
  broadcastInDim S3200000x1 ![0] bcast_S3200000_S3200000x1_0 ew

/-- One message-passing step on rows of width 16: gather each edge's source row of `h`, scale it by the edge's
    weight, add it into the destination's row of a zero array. -/
def aggregate16 (h : (⟨S100000x16, .f32⟩ : BufTy).Contents (Elt F)) (s d : (⟨S3200000, .i32⟩ : BufTy).Contents (Elt F))
    (wcol : (⟨S3200000x1, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 d)
    (mulf (Host.gather gather_S100000x16_S3200000x1_S3200000x16_1_0_n_n_0_1_116 h (readRows s))
      (broadcastInDim S3200000x16 ![0, 1] bcast_S3200000x1_S3200000x16_0_1 wcol))

/-- The same step on rows of width 40. -/
def aggregate40 (h : (⟨S100000x40, .f32⟩ : BufTy).Contents (Elt F)) (s d : (⟨S3200000, .i32⟩ : BufTy).Contents (Elt F))
    (wcol : (⟨S3200000x1, .f32⟩ : BufTy).Contents (Elt F)) : (⟨S100000x40, .f32⟩ : BufTy).Contents (Elt F) :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 d)
    (mulf (Host.gather gather_S100000x40_S3200000x1_S3200000x40_1_0_n_n_0_1_140 h (readRows s))
      (broadcastInDim S3200000x40 ![0, 1] bcast_S3200000x1_S3200000x40_0_1 wcol))

end Cert.KernelIdeal.Glue

namespace Cert.Gcn

open Idealize.ShloMosaic Idealize.ShloMosaic.ValueIdx Cert.KernelIdeal Cert.KernelIdeal.Glue

/-- The whole network on the extended reals: the feature transform, a message-passing step, the hidden layer, a second
    message-passing step, the log-softmax head — as one function of the seven argument arrays. Both programs' result
    buffers end holding it. -/
def network (x : (⟨S100000x256, .f32⟩ : BufTy).Contents (Elt Ideal)) (ei : (⟨S2x3200000, .i32⟩ : BufTy).Contents (Elt Ideal))
    (ew : (⟨S3200000, .f32⟩ : BufTy).Contents (Elt Ideal)) (w1 : (⟨S256x16, .f32⟩ : BufTy).Contents (Elt Ideal))
    (b1 : (⟨S16, .f32⟩ : BufTy).Contents (Elt Ideal)) (w2 : (⟨S16x40, .f32⟩ : BufTy).Contents (Elt Ideal))
    (b2 : (⟨S40, .f32⟩ : BufTy).Contents (Elt Ideal)) : (⟨S100000x40, .f32⟩ : BufTy).Contents (Elt Ideal) :=
  logSoftmaxRows
    (aggregate40
      (dense2 (aggregate16 (dense1 x w1) (srcNodes ei) (dstNodes ei) (weightCol ew)) (fun k => b1 (ix1 k)) w2)
      (srcNodes ei) (dstNodes ei) (weightCol ew))
    (fun k => b2 (ix1 k))

end Cert.Gcn

end
-- ==== Proof.KernelValue.lean ====
/-
  What the kernel program's result buffer holds when @main returns, as a function of the seven argument arrays.

  @main is three stretches of host operations with a kernel region after each. The contents of the buffers at
  each boundary are a fold through @main from the launch memory; this module reads that fold at the buffers the
  next segment takes. The first stretch cuts the edge list into source and destination nodes, puts the edge
  weights in a column and narrows the features and the first weights (a change of format: the identity on the
  extended reals); the first region leaves the feature transform; the second stretch is a message-passing step
  and reshapes the first bias; the second region leaves the hidden layer; the third stretch is a message-passing
  step on its rows and reshapes the second bias; the third region leaves the log-softmax head. A buffer a segment
  does not write keeps what it held, which is how the edge list's two rows, the weight column and the later
  arguments reach the segments that read them.
-/
import proofs.«114106_j53712861003990_2_alg».proof.Proof.Gen.KernelIdeal.Frame
import proofs.«114106_j53712861003990_2_alg».proof.Proof.Region0
import proofs.«114106_j53712861003990_2_alg».proof.Proof.Region1
import proofs.«114106_j53712861003990_2_alg».proof.Proof.Region2
import proofs.«114106_j53712861003990_2_alg».proof.Proof.Glue
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.StableHlo

namespace Cert.KernelIdeal.Whole

open Cert.KernelIdeal Cert.KernelIdeal.Gen Cert.KernelIdeal.Glue

/-! ## Each stretch of host operations, from ANY contents `V`: what it writes at the buffers read later, and that it
    leaves the buffers it does not write -/

section Stretches

variable (V : Valuation τ sig (Elt Ideal))

theorem ops0_v1 : StableHlo.after hostOps0 V (Proc.devRef .tc main_v1) = srcNodes (V (Proc.devRef .tc main_arg1)) := by
  after_results
  rfl
theorem ops0_v3 : StableHlo.after hostOps0 V (Proc.devRef .tc main_v3) = dstNodes (V (Proc.devRef .tc main_arg1)) := by
  after_results
  rfl
theorem ops0_v4 : StableHlo.after hostOps0 V (Proc.devRef .tc main_v4) = weightCol (V (Proc.devRef .tc main_arg2)) := by
  after_results
  rfl
theorem ops0_v5 : (StableHlo.after hostOps0 V (Proc.devRef .tc main_v5) : S100000x256.Idx → EReal)
    = V (Proc.devRef .tc main_arg0) := by
  after_results
  rfl
theorem ops0_v6 : (StableHlo.after hostOps0 V (Proc.devRef .tc main_v6) : S256x16.Idx → EReal)
    = V (Proc.devRef .tc main_arg3) := by
  after_results
  rfl
theorem ops0_arg4 : StableHlo.after hostOps0 V (Proc.devRef .tc main_arg4) = V (Proc.devRef .tc main_arg4) := by
  after_results
theorem ops0_arg5 : StableHlo.after hostOps0 V (Proc.devRef .tc main_arg5) = V (Proc.devRef .tc main_arg5) := by
  after_results
theorem ops0_arg6 : StableHlo.after hostOps0 V (Proc.devRef .tc main_arg6) = V (Proc.devRef .tc main_arg6) := by
  after_results

theorem ops1_v19 : StableHlo.after hostOps1 V (Proc.devRef .tc main_v19)
    = aggregate16 (V (Proc.devRef .tc main_v7)) (V (Proc.devRef .tc main_v1)) (V (Proc.devRef .tc main_v3))
        (V (Proc.devRef .tc main_v4)) := by
  after_results
  rfl
theorem ops1_v20 : StableHlo.after hostOps1 V (Proc.devRef .tc main_v20)
    = shapeCast S1x16 (V (Proc.devRef .tc main_arg4)) shapeCasts_S16_S1x16 := by
  after_results
  rfl
theorem ops1_v21 : (StableHlo.after hostOps1 V (Proc.devRef .tc main_v21) : S16x40.Idx → EReal)
    = V (Proc.devRef .tc main_arg5) := by
  after_results
  rfl
theorem ops1_v1 : StableHlo.after hostOps1 V (Proc.devRef .tc main_v1) = V (Proc.devRef .tc main_v1) := by
  after_results
theorem ops1_v3 : StableHlo.after hostOps1 V (Proc.devRef .tc main_v3) = V (Proc.devRef .tc main_v3) := by
  after_results
theorem ops1_v4 : StableHlo.after hostOps1 V (Proc.devRef .tc main_v4) = V (Proc.devRef .tc main_v4) := by
  after_results
theorem ops1_arg6 : StableHlo.after hostOps1 V (Proc.devRef .tc main_arg6) = V (Proc.devRef .tc main_arg6) := by
  after_results

theorem ops2_v34 : StableHlo.after hostOps2 V (Proc.devRef .tc main_v34)
    = aggregate40 (V (Proc.devRef .tc main_v22)) (V (Proc.devRef .tc main_v1)) (V (Proc.devRef .tc main_v3))
        (V (Proc.devRef .tc main_v4)) := by
  after_results
  rfl
theorem ops2_v35 : StableHlo.after hostOps2 V (Proc.devRef .tc main_v35)
    = shapeCast S1x40 (V (Proc.devRef .tc main_arg6)) shapeCasts_S40_S1x40 := by
  after_results
  rfl

end Stretches

variable (m : (ℓ : Loc nD τ sig) → Buf (Elt Ideal) ℓ) (ρ : Dev nD → PrngReg)

/-! ## After the first stretch of host operations -/

theorem W1_v1 (c : Dev nD) :
    W1 m ρ c (Proc.devRef .tc main_v1) = srcNodes (m ((c : Thread nD τ).loc main_arg1)) :=
  ops0_v1 (W0 m ρ c)

theorem W1_v3 (c : Dev nD) :
    W1 m ρ c (Proc.devRef .tc main_v3) = dstNodes (m ((c : Thread nD τ).loc main_arg1)) :=
  ops0_v3 (W0 m ρ c)

theorem W1_v4 (c : Dev nD) :
    W1 m ρ c (Proc.devRef .tc main_v4) = weightCol (m ((c : Thread nD τ).loc main_arg2)) :=
  ops0_v4 (W0 m ρ c)

theorem W1_v5 (c : Dev nD) :
    (W1 m ρ c (Proc.devRef .tc main_v5) : S100000x256.Idx → EReal) = m ((c : Thread nD τ).loc main_arg0) :=
  ops0_v5 (W0 m ρ c)

theorem W1_v6 (c : Dev nD) :
    (W1 m ρ c (Proc.devRef .tc main_v6) : S256x16.Idx → EReal) = m ((c : Thread nD τ).loc main_arg3) :=
  ops0_v6 (W0 m ρ c)

theorem W1_arg4 (c : Dev nD) : W1 m ρ c (Proc.devRef .tc main_arg4) = m ((c : Thread nD τ).loc main_arg4) :=
  ops0_arg4 (W0 m ρ c)

theorem W1_arg5 (c : Dev nD) : W1 m ρ c (Proc.devRef .tc main_arg5) = m ((c : Thread nD τ).loc main_arg5) :=
  ops0_arg5 (W0 m ρ c)

theorem W1_arg6 (c : Dev nD) : W1 m ρ c (Proc.devRef .tc main_arg6) = m ((c : Thread nD τ).loc main_arg6) :=
  ops0_arg6 (W0 m ρ c)

/-! ## After the first region: the feature transform, and everything else as before -/

theorem W2_v1 (c : Dev nD) :
    W2 m ρ c (Proc.devRef .tc main_v1) = srcNodes (m ((c : Thread nD τ).loc main_arg1)) :=
  (W2_of_ne m ρ c main_v1 (by decide)).trans (W1_v1 m ρ c)

theorem W2_v3 (c : Dev nD) :
    W2 m ρ c (Proc.devRef .tc main_v3) = dstNodes (m ((c : Thread nD τ).loc main_arg1)) :=
  (W2_of_ne m ρ c main_v3 (by decide)).trans (W1_v3 m ρ c)

theorem W2_v4 (c : Dev nD) :
    W2 m ρ c (Proc.devRef .tc main_v4) = weightCol (m ((c : Thread nD τ).loc main_arg2)) :=
  (W2_of_ne m ρ c main_v4 (by decide)).trans (W1_v4 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

/-- The first region's result array: the feature transform of the features and the first weights (their narrowing
    to the matrix unit's format is the identity on the extended reals). -/
theorem W2_v7 (c : Dev nD) :
    (W2 m ρ c (Proc.devRef .tc main_v7) : S100000x16.Idx → EReal)
      = Cert.Gcn.dense1 (m ((c : Thread nD τ).loc main_arg0)) (m ((c : Thread nD τ).loc main_arg3)) := by
  refine (W2_arr m ρ c 2).trans ((Stage1.final (V1 m ρ) c).trans ?_)
  show Cert.Gcn.dense1 (W1 m ρ c (Proc.devRef .tc main_v5)) (W1 m ρ c (Proc.devRef .tc main_v6)) = _
  rw [W1_v5 m ρ c, W1_v6 m ρ c]

/-! ## After the second stretch: a message-passing step on the feature transform -/

theorem W3_v19 (c : Dev nD) :
    W3 m ρ c (Proc.devRef .tc main_v19)
      = aggregate16 (W2 m ρ c (Proc.devRef .tc main_v7)) (srcNodes (m ((c : Thread nD τ).loc main_arg1)))
          (dstNodes (m ((c : Thread nD τ).loc main_arg1))) (weightCol (m ((c : Thread nD τ).loc main_arg2))) :=
  (ops1_v19 (W2 m ρ c)).trans (by rw [W2_v1 m ρ c, W2_v3 m ρ c, W2_v4 m ρ c])

theorem W3_v20 (c : Dev nD) :
    W3 m ρ c (Proc.devRef .tc main_v20) = shapeCast S1x16 (m ((c : Thread nD τ).loc main_arg4)) shapeCasts_S16_S1x16 :=
  (ops1_v20 (W2 m ρ c)).trans (by rw [W2_arg4 m ρ c])

theorem W3_v21 (c : Dev nD) :
    (W3 m ρ c (Proc.devRef .tc main_v21) : S16x40.Idx → EReal) = m ((c : Thread nD τ).loc main_arg5) :=
  (ops1_v21 (W2 m ρ c)).trans (by rw [W2_arg5 m ρ c])

theorem W3_v1 (c : Dev nD) :
    W3 m ρ c (Proc.devRef .tc main_v1) = srcNodes (m ((c : Thread nD τ).loc main_arg1)) :=
  (ops1_v1 (W2 m ρ c)).trans (W2_v1 m ρ c)

theorem W3_v3 (c : Dev nD) :
    W3 m ρ c (Proc.devRef .tc main_v3) = dstNodes (m ((c : Thread nD τ).loc main_arg1)) :=
  (ops1_v3 (W2 m ρ c)).trans (W2_v3 m ρ c)

theorem W3_v4 (c : Dev nD) :
    W3 m ρ c (Proc.devRef .tc main_v4) = weightCol (m ((c : Thread nD τ).loc main_arg2)) :=
  (ops1_v4 (W2 m ρ c)).trans (W2_v4 m ρ c)

theorem W3_arg6 (c : Dev nD) : W3 m ρ c (Proc.devRef .tc main_arg6) = m ((c : Thread nD τ).loc main_arg6) :=
  (ops1_arg6 (W2 m ρ c)).trans (W2_arg6 m ρ c)

/-! ## After the second region: the hidden layer -/

theorem W4_v1 (c : Dev nD) :
    W4 m ρ c (Proc.devRef .tc main_v1) = srcNodes (m ((c : Thread nD τ).loc main_arg1)) :=
  (W4_of_ne m ρ c main_v1 (by decide)).trans (W3_v1 m ρ c)

theorem W4_v3 (c : Dev nD) :
    W4 m ρ c (Proc.devRef .tc main_v3) = dstNodes (m ((c : Thread nD τ).loc main_arg1)) :=
  (W4_of_ne m ρ c main_v3 (by decide)).trans (W3_v3 m ρ c)

theorem W4_v4 (c : Dev nD) :
    W4 m ρ c (Proc.devRef .tc main_v4) = weightCol (m ((c : Thread nD τ).loc main_arg2)) :=
  (W4_of_ne m ρ c main_v4 (by decide)).trans (W3_v4 m ρ c)

theorem W4_arg6 (c : Dev nD) : W4 m ρ c (Proc.devRef .tc main_arg6) = m ((c : Thread nD τ).loc main_arg6) :=
  (W4_of_ne m ρ c main_arg6 (by decide)).trans (W3_arg6 m ρ c)

/-- The first bias as a row, read at (0, k), is the bias's entry k. -/
theorem bias1_row (c : Dev nD) :
    (fun k : Fin 16 => (W3 m ρ c (Proc.devRef .tc main_v20) : S1x16.Idx → EReal) (ix2 (0 : Fin 1) k))
      = fun k => (m ((c : Thread nD τ).loc main_arg4) : S16.Idx → EReal) (ix1 k) := by
  rw [W3_v20 m ρ c]
  exact funext fun k => shapeCast_a_1a_apply _ shapeCasts_S16_S1x16 0 k

/-- The second region's result array: the hidden layer of the aggregated feature transform. -/
theorem W4_v22 (c : Dev nD) :
    (W4 m ρ c (Proc.devRef .tc main_v22) : S100000x40.Idx → EReal)
      = Cert.Gcn.dense2
          (aggregate16 (Cert.Gcn.dense1 (m ((c : Thread nD τ).loc main_arg0)) (m ((c : Thread nD τ).loc main_arg3)))
            (srcNodes (m ((c : Thread nD τ).loc main_arg1))) (dstNodes (m ((c : Thread nD τ).loc main_arg1)))
            (weightCol (m ((c : Thread nD τ).loc main_arg2))))
          (fun k => (m ((c : Thread nD τ).loc main_arg4) : S16.Idx → EReal) (ix1 k))
          (m ((c : Thread nD τ).loc main_arg5)) := by
  refine (W4_arr m ρ c 3).trans ((Stage2.final (V3 m ρ) c).trans ?_)
  show Cert.Gcn.dense2 (W3 m ρ c (Proc.devRef .tc main_v19))
    (fun k : Fin 16 => (W3 m ρ c (Proc.devRef .tc main_v20) : S1x16.Idx → EReal) (ix2 (0 : Fin 1) k))
    (W3 m ρ c (Proc.devRef .tc main_v21)) = _
  rw [bias1_row m ρ c, W3_v19 m ρ c, W3_v21 m ρ c, W2_v7 m ρ c]

/-! ## After the third stretch: a message-passing step on the hidden layer -/

theorem W5_v34 (c : Dev nD) :
    W5 m ρ c (Proc.devRef .tc main_v34)
      = aggregate40 (W4 m ρ c (Proc.devRef .tc main_v22)) (srcNodes (m ((c : Thread nD τ).loc main_arg1)))
          (dstNodes (m ((c : Thread nD τ).loc main_arg1))) (weightCol (m ((c : Thread nD τ).loc main_arg2))) :=
  (ops2_v34 (W4 m ρ c)).trans (by rw [W4_v1 m ρ c, W4_v3 m ρ c, W4_v4 m ρ c])

theorem W5_v35 (c : Dev nD) :
    W5 m ρ c (Proc.devRef .tc main_v35) = shapeCast S1x40 (m ((c : Thread nD τ).loc main_arg6)) shapeCasts_S40_S1x40 :=
  (ops2_v35 (W4 m ρ c)).trans (by rw [W4_arg6 m ρ c])

/-- The second bias as a row, read at (0, k), is the bias's entry k. -/
theorem bias2_row (c : Dev nD) :
    (fun k : Fin 40 => (W5 m ρ c (Proc.devRef .tc main_v35) : S1x40.Idx → EReal) (ix2 (0 : Fin 1) k))
      = fun k => (m ((c : Thread nD τ).loc main_arg6) : S40.Idx → EReal) (ix1 k) := by
  rw [W5_v35 m ρ c]
  exact funext fun k => shapeCast_a_1a_apply _ shapeCasts_S40_S1x40 0 k

/-! ## After the third region: the result -/

/-- The result buffer when @main returns: the whole network of the seven argument arrays. -/
theorem result (c : Dev nD) :
    W6 m ρ c (Proc.devRef .tc main_v36)
      = Cert.Gcn.network (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W6_arr m ρ c 2).trans ((Stage3.final (V5 m ρ) c).trans ?_)
  show Cert.Gcn.logSoftmaxRows (W5 m ρ c (Proc.devRef .tc main_v34))
    (fun k : Fin 40 => (W5 m ρ c (Proc.devRef .tc main_v35) : S1x40.Idx → EReal) (ix2 (0 : Fin 1) k)) = _
  rw [bias2_row m ρ c, W5_v34 m ρ c, W4_v22 m ρ c]
  rfl

end Cert.KernelIdeal.Whole

end
-- ==== Proof.KernelRun.lean ====
/-
  The kernel program's run with its result named: from any memory, every weakly fair execution of @main on the
  TensorCores terminates, nothing faulting, the result buffer holding the whole network of the seven argument
  arrays and the arguments unchanged. The run is @main's six segments (three stretches of host operations, three
  kernel regions) chained from the launch to the return; at the return every buffer that outlives a region holds
  the last boundary's contents, and what those are at the result buffer is `Whole.result`.
-/
import proofs.«114106_j53712861003990_2_alg».proof.Proof.Gen.KernelIdeal.Frame
import proofs.«114106_j53712861003990_2_alg».proof.Proof.KernelValue

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of @main terminates without a fault; the result buffer ends at the network of the
    arguments, and each argument array ends as launched. -/
theorem run : θ_run (defs (F := Ideal)) (onTc (τ := τ) (main (F := Ideal))) ⟨m, fun _ => 0, ρ⟩ (fun r => ∀ c : Dev nD,
      r.2.mem ((c.tc : Thread nD τ).loc main_v36) = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v36 (by decide))).trans (result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Whole

end
-- ==== Proof.RefTerms.lean ====
/-
  The reference's two dense stages after the feature transform, as its host operations spell them: the hidden layer
  (bias placed as a row and repeated down the rows, rectifier, product with the second weights) and the log-softmax
  head (bias, row maxima kept as a column and repeated along the rows, exponentials, row sums, logarithm). Stated
  once so that the reading of the reference's run and the entry-by-entry reading of these terms meet in them.
-/
import proofs.«114106_j53712861003990_2_alg».proof.Proof.Gen.ReferenceIdeal

noncomputable section

namespace Cert.ReferenceIdeal.Hand

open Cert.ReferenceIdeal Cert.ReferenceIdeal.Gen Idealize.ShloMosaic

variable {F : FTy → Type} [FloatOps F]

/-- The hidden layer as the reference's operations spell it, of the aggregated features `a`, the bias `b` and the
    weights `w`. -/
def hiddenTerm (a : (⟨S100000x16, .f32⟩ : BufTy).Contents (Elt F)) (b : (⟨S16, .f32⟩ : BufTy).Contents (Elt F))
    (w : (⟨S16x40, .f32⟩ : BufTy).Contents (Elt F)) : (⟨S100000x40, .f32⟩ : BufTy).Contents (Elt F) :=
  Host.dotGeneral dot_S100000x16_S16x40_S100000x40_1_0_0_1_n_n none
    (maximumf
      (addf a (broadcastInDim S100000x16 ![0, 1] bcast_S1x16_S100000x16_0_1 (broadcastInDim S1x16 ![1] bcast_S16_S1x16_1 b)))
      (broadcastInDim S100000x16 ![] bcast_S_S100000x16 (constant S_ .f32 0x00000000#32)))
    w

/-- The rows of logits less their maxima, as the reference's operations spell it. -/
def shiftedTerm (z : (⟨S100000x40, .f32⟩ : BufTy).Contents (Elt F)) : (⟨S100000x40, .f32⟩ : BufTy).Contents (Elt F) :=
  subf z
    (broadcastInDim S100000x40 ![0, 1] bcast_S100000x1_S100000x40_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x40_S100000_d1 h_S_))))

/-- The log-softmax head as the reference's operations spell it, of the aggregated scores `a` and the bias `b`. -/
def headTerm (a : (⟨S100000x40, .f32⟩ : BufTy).Contents (Elt F)) (b : (⟨S40, .f32⟩ : BufTy).Contents (Elt F)) :
    (⟨S100000x40, .f32⟩ : BufTy).Contents (Elt F) :=
  subf
    (shiftedTerm (addf a (broadcastInDim S100000x40 ![0, 1] bcast_S1x40_S100000x40_0_1 (broadcastInDim S1x40 ![1] bcast_S40_S1x40_1 b))))
    (broadcastInDim S100000x40 ![0, 1] bcast_S100000x1_S100000x40_0_1
      (Host.log
        (broadcastInDim S100000x1 ![0] bcast_S100000_S100000x1_0
          (Host.reduceAdd
            (Host.exp (shiftedTerm (addf a (broadcastInDim S100000x40 ![0, 1] bcast_S1x40_S100000x40_0_1 (broadcastInDim S1x40 ![1] bcast_S40_S1x40_1 b)))))
            (constant S_ .f32 0x00000000#32) reducesTo_S100000x40_S100000_d1 h_S_))))

end Cert.ReferenceIdeal.Hand

end
-- ==== Proof.RefRun.lean ====
/-
  The reference program's run, read in five stretches.

  The reference is 62 host operations in a row and no kernel: every weakly fair execution runs them in order, so each
  buffer ends holding what the operations' fold leaves in it. This module cuts the row into five stretches — the
  edge list's two rows and the feature transform; a message-passing step; the bias, the rectifier and the hidden
  layer's product; a second message-passing step; the bias and the log-softmax — and reads each stretch from ANY
  contents `V`: what it writes at the buffers read later, as the operations' term of what `V` holds at the buffers it
  reads, and that it leaves the buffers it does not write. The two message-passing stretches are the same functions
  (`aggregate16`, `aggregate40`) the kernel program's host stretches are. Chained, the five readings give the result
  buffer as one term of the seven arguments. The two functions the reference calls (the rectifier and the log-softmax)
  stand as their operations, in the call's place, on the call's own buffers.
-/
import proofs.«114106_j53712861003990_2_alg».proof.Proof.Gen.ReferenceIdeal
import proofs.«114106_j53712861003990_2_alg».proof.Proof.Glue
import proofs.«114106_j53712861003990_2_alg».proof.Proof.RefTerms
import Idealize.ShloMosaic.Lib.StableHlo.Run

noncomputable section

-- The host's reduce is a fold over every index of its operand, four million of them here. What follows uses one
-- fact about it only: over one axis it is, at each row, the fold of its body over that row's entries.
attribute [local irreducible] Idealize.ShloMosaic.Host.reduce

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Glue (srcNodes dstNodes weightCol aggregate16 aggregate40)

variable {F : FTy → Type} [FloatOps F]

/-- The edge list's two rows and the feature transform. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)) ]

/-- The first message-passing step. -/
abbrev opsB : List (HloOp τ sig (Elt F)) :=
  [ nullary main_c (constantI S_ 32 0#32),
    unary main_c main_v5 (broadcastInDim S3200000 ![] bcast_S_S3200000 : (⟨S_, .i32⟩ : BufTy).Contents (Elt F) → (⟨S3200000, .i32⟩ : BufTy).Contents (Elt F)),
    binary main_v1 main_v5 main_v6 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v7 (broadcastInDim S3200000 ![] bcast_S_S3200000 : (⟨S_, .i32⟩ : BufTy).Contents (Elt F) → (⟨S3200000, .i32⟩ : BufTy).Contents (Elt F)),
    binary main_v1 main_v7 main_v8 (addi : (⟨S3200000, .i32⟩ : BufTy).Contents (Elt F) → (⟨S3200000, .i32⟩ : BufTy).Contents (Elt F) → (⟨S3200000, .i32⟩ : BufTy).Contents (Elt F)),
    ternary main_v6 main_v8 main_v1 main_v9 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v9 main_v10 (broadcastInDim S3200000x1 ![0] bcast_S3200000_S3200000x1_0 : (⟨S3200000, .i32⟩ : BufTy).Contents (Elt F) → (⟨S3200000x1, .i32⟩ : BufTy).Contents (Elt F)),
    binary main_v4 main_v10 main_v11 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_arg2 main_v12 (broadcastInDim S3200000x1 ![0] bcast_S3200000_S3200000x1_0 : (⟨S3200000, .f32⟩ : BufTy).Contents (Elt F) → (⟨S3200000x1, .f32⟩ : BufTy).Contents (Elt F)),
    unary main_v12 main_v13 (broadcastInDim S3200000x16 ![0, 1] bcast_S3200000x1_S3200000x16_0_1 : (⟨S3200000x1, .f32⟩ : BufTy).Contents (Elt F) → (⟨S3200000x16, .f32⟩ : BufTy).Contents (Elt F)),
    binary main_v11 main_v13 main_v14 (mulf : (⟨S3200000x16, .f32⟩ : BufTy).Contents (Elt F) → (⟨S3200000x16, .f32⟩ : BufTy).Contents (Elt F) → (⟨S3200000x16, .f32⟩ : BufTy).Contents (Elt F)),
    nullary main_cst (constant S_ .f32 0x00000000#32),
    unary main_cst main_v15 (broadcastInDim S100000x16 ![] bcast_S_S100000x16 : (⟨S_, .f32⟩ : BufTy).Contents (Elt F) → (⟨S100000x16, .f32⟩ : BufTy).Contents (Elt F)),
    unary main_v3 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)) ]

/-- The first bias, the rectifier and the hidden layer's product. -/
abbrev opsC : List (HloOp τ sig (Elt F)) :=
  [ unary main_arg4 main_v18 (broadcastInDim S1x16 ![1] bcast_S16_S1x16_1 : (⟨S16, .f32⟩ : BufTy).Contents (Elt F) → (⟨S1x16, .f32⟩ : BufTy).Contents (Elt F)),
    unary main_v18 main_v19 (broadcastInDim S100000x16 ![0, 1] bcast_S1x16_S100000x16_0_1 : (⟨S1x16, .f32⟩ : BufTy).Contents (Elt F) → (⟨S100000x16, .f32⟩ : BufTy).Contents (Elt F)),
    binary main_v17 main_v19 main_v20 (addf : (⟨S100000x16, .f32⟩ : BufTy).Contents (Elt F) → (⟨S100000x16, .f32⟩ : BufTy).Contents (Elt F) → (⟨S100000x16, .f32⟩ : BufTy).Contents (Elt F)),
    nullary main_call0_cst (constant S_ .f32 0x00000000#32),
    unary main_call0_cst main_call0_v0 (broadcastInDim S100000x16 ![] bcast_S_S100000x16 : (⟨S_, .f32⟩ : BufTy).Contents (Elt F) → (⟨S100000x16, .f32⟩ : BufTy).Contents (Elt F)),
    binary main_v20 main_call0_v0 main_v21 (maximumf : (⟨S100000x16, .f32⟩ : BufTy).Contents (Elt F) → (⟨S100000x16, .f32⟩ : BufTy).Contents (Elt F) → (⟨S100000x16, .f32⟩ : BufTy).Contents (Elt F)),
    binary main_v21 main_arg5 main_v22 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- The second message-passing step. -/
abbrev opsD : List (HloOp τ sig (Elt F)) :=
  [ nullary main_c_1 (constantI S_ 32 0#32),
    unary main_c_1 main_v23 (broadcastInDim S3200000 ![] bcast_S_S3200000 : (⟨S_, .i32⟩ : BufTy).Contents (Elt F) → (⟨S3200000, .i32⟩ : BufTy).Contents (Elt F)),
    binary main_v1 main_v23 main_v24 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v25 (broadcastInDim S3200000 ![] bcast_S_S3200000 : (⟨S_, .i32⟩ : BufTy).Contents (Elt F) → (⟨S3200000, .i32⟩ : BufTy).Contents (Elt F)),
    binary main_v1 main_v25 main_v26 (addi : (⟨S3200000, .i32⟩ : BufTy).Contents (Elt F) → (⟨S3200000, .i32⟩ : BufTy).Contents (Elt F) → (⟨S3200000, .i32⟩ : BufTy).Contents (Elt F)),
    ternary main_v24 main_v26 main_v1 main_v27 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v27 main_v28 (broadcastInDim S3200000x1 ![0] bcast_S3200000_S3200000x1_0 : (⟨S3200000, .i32⟩ : BufTy).Contents (Elt F) → (⟨S3200000x1, .i32⟩ : BufTy).Contents (Elt F)),
    binary main_v22 main_v28 main_v29 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_arg2 main_v30 (broadcastInDim S3200000x1 ![0] bcast_S3200000_S3200000x1_0 : (⟨S3200000, .f32⟩ : BufTy).Contents (Elt F) → (⟨S3200000x1, .f32⟩ : BufTy).Contents (Elt F)),
    unary main_v30 main_v31 (broadcastInDim S3200000x40 ![0, 1] bcast_S3200000x1_S3200000x40_0_1 : (⟨S3200000x1, .f32⟩ : BufTy).Contents (Elt F) → (⟨S3200000x40, .f32⟩ : BufTy).Contents (Elt F)),
    binary main_v29 main_v31 main_v32 (mulf : (⟨S3200000x40, .f32⟩ : BufTy).Contents (Elt F) → (⟨S3200000x40, .f32⟩ : BufTy).Contents (Elt F) → (⟨S3200000x40, .f32⟩ : BufTy).Contents (Elt F)),
    nullary main_cst_3 (constant S_ .f32 0x00000000#32),
    unary main_cst_3 main_v33 (broadcastInDim S100000x40 ![] bcast_S_S100000x40 : (⟨S_, .f32⟩ : BufTy).Contents (Elt F) → (⟨S100000x40, .f32⟩ : BufTy).Contents (Elt F)),
    unary main_v3 main_v34 (broadcastInDim S3200000x1 ![0] bcast_S3200000_S3200000x1_0 : (⟨S3200000, .i32⟩ : BufTy).Contents (Elt F) → (⟨S3200000x1, .i32⟩ : BufTy).Contents (Elt F)),
    ternary main_v33 main_v34 main_v32 main_v35 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)) ]

/-- The second bias and the log-softmax. -/
abbrev opsE : List (HloOp τ sig (Elt F)) :=
  [ unary main_arg6 main_v36 (broadcastInDim S1x40 ![1] bcast_S40_S1x40_1 : (⟨S40, .f32⟩ : BufTy).Contents (Elt F) → (⟨S1x40, .f32⟩ : BufTy).Contents (Elt F)),
    unary main_v36 main_v37 (broadcastInDim S100000x40 ![0, 1] bcast_S1x40_S100000x40_0_1 : (⟨S1x40, .f32⟩ : BufTy).Contents (Elt F) → (⟨S100000x40, .f32⟩ : BufTy).Contents (Elt F)),
    binary main_v35 main_v37 main_v38 (addf : (⟨S100000x40, .f32⟩ : BufTy).Contents (Elt F) → (⟨S100000x40, .f32⟩ : BufTy).Contents (Elt F) → (⟨S100000x40, .f32⟩ : BufTy).Contents (Elt F)),
    nullary main_call1_cst (constant S_ .f32 0xFF800000#32),
    binary main_v38 main_call1_cst main_call1_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call1_cst_0 (constant S_ .f32 0xFF800000#32),
    unary main_call1_cst_0 main_call1_v1 (broadcastInDim S100000 ![] bcast_S_S100000 : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 (broadcastInDim S100000x1 ![0] bcast_S100000_S100000x1_0 : (⟨S100000, .f32⟩ : BufTy).Contents (Elt F) → (⟨S100000x1, .f32⟩ : BufTy).Contents (Elt F)),
    unary main_call1_v3 main_call1_v4 (broadcastInDim S100000x40 ![0, 1] bcast_S100000x1_S100000x40_0_1 : (⟨S100000x1, .f32⟩ : BufTy).Contents (Elt F) → (⟨S100000x40, .f32⟩ : BufTy).Contents (Elt F)),
    binary main_v38 main_call1_v4 main_call1_v5 (subf : (⟨S100000x40, .f32⟩ : BufTy).Contents (Elt F) → (⟨S100000x40, .f32⟩ : BufTy).Contents (Elt F) → (⟨S100000x40, .f32⟩ : BufTy).Contents (Elt F)),
    unary main_call1_v5 main_call1_v6 (Host.exp : (⟨S100000x40, .f32⟩ : BufTy).Contents (Elt F) → (⟨S100000x40, .f32⟩ : BufTy).Contents (Elt F)),
    nullary main_call1_cst_1 (constant S_ .f32 0x00000000#32),
    binary main_call1_v6 main_call1_cst_1 main_call1_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call1_v7 main_call1_v8 (broadcastInDim S100000x1 ![0] bcast_S100000_S100000x1_0 : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 (broadcastInDim S100000x40 ![0, 1] bcast_S100000x1_S100000x40_0_1 : (⟨S100000x1, .f32⟩ : BufTy).Contents (Elt F) → (⟨S100000x40, .f32⟩ : BufTy).Contents (Elt F)),
    binary main_call1_v5 main_call1_v10 main_v39 (subf : (⟨S100000x40, .f32⟩ : BufTy).Contents (Elt F) → (⟨S100000x40, .f32⟩ : BufTy).Contents (Elt F) → (⟨S100000x40, .f32⟩ : BufTy).Contents (Elt F)) ]

/-- @main's 62 operations, in order. -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    nullary main_c (constantI S_ 32 0#32),
    unary main_c main_v5 (broadcastInDim S3200000 ![] bcast_S_S3200000 : (⟨S_, .i32⟩ : BufTy).Contents (Elt F) → (⟨S3200000, .i32⟩ : BufTy).Contents (Elt F)),
    binary main_v1 main_v5 main_v6 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v7 (broadcastInDim S3200000 ![] bcast_S_S3200000 : (⟨S_, .i32⟩ : BufTy).Contents (Elt F) → (⟨S3200000, .i32⟩ : BufTy).Contents (Elt F)),
    binary main_v1 main_v7 main_v8 (addi : (⟨S3200000, .i32⟩ : BufTy).Contents (Elt F) → (⟨S3200000, .i32⟩ : BufTy).Contents (Elt F) → (⟨S3200000, .i32⟩ : BufTy).Contents (Elt F)),
    ternary main_v6 main_v8 main_v1 main_v9 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v9 main_v10 (broadcastInDim S3200000x1 ![0] bcast_S3200000_S3200000x1_0 : (⟨S3200000, .i32⟩ : BufTy).Contents (Elt F) → (⟨S3200000x1, .i32⟩ : BufTy).Contents (Elt F)),
    binary main_v4 main_v10 main_v11 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_arg2 main_v12 (broadcastInDim S3200000x1 ![0] bcast_S3200000_S3200000x1_0 : (⟨S3200000, .f32⟩ : BufTy).Contents (Elt F) → (⟨S3200000x1, .f32⟩ : BufTy).Contents (Elt F)),
    unary main_v12 main_v13 (broadcastInDim S3200000x16 ![0, 1] bcast_S3200000x1_S3200000x16_0_1 : (⟨S3200000x1, .f32⟩ : BufTy).Contents (Elt F) → (⟨S3200000x16, .f32⟩ : BufTy).Contents (Elt F)),
    binary main_v11 main_v13 main_v14 (mulf : (⟨S3200000x16, .f32⟩ : BufTy).Contents (Elt F) → (⟨S3200000x16, .f32⟩ : BufTy).Contents (Elt F) → (⟨S3200000x16, .f32⟩ : BufTy).Contents (Elt F)),
    nullary main_cst (constant S_ .f32 0x00000000#32),
    unary main_cst main_v15 (broadcastInDim S100000x16 ![] bcast_S_S100000x16 : (⟨S_, .f32⟩ : BufTy).Contents (Elt F) → (⟨S100000x16, .f32⟩ : BufTy).Contents (Elt F)),
    unary main_v3 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    unary main_arg4 main_v18 (broadcastInDim S1x16 ![1] bcast_S16_S1x16_1 : (⟨S16, .f32⟩ : BufTy).Contents (Elt F) → (⟨S1x16, .f32⟩ : BufTy).Contents (Elt F)),
    unary main_v18 main_v19 (broadcastInDim S100000x16 ![0, 1] bcast_S1x16_S100000x16_0_1 : (⟨S1x16, .f32⟩ : BufTy).Contents (Elt F) → (⟨S100000x16, .f32⟩ : BufTy).Contents (Elt F)),
    binary main_v17 main_v19 main_v20 (addf : (⟨S100000x16, .f32⟩ : BufTy).Contents (Elt F) → (⟨S100000x16, .f32⟩ : BufTy).Contents (Elt F) → (⟨S100000x16, .f32⟩ : BufTy).Contents (Elt F)),
    nullary main_call0_cst (constant S_ .f32 0x00000000#32),
    unary main_call0_cst main_call0_v0 (broadcastInDim S100000x16 ![] bcast_S_S100000x16 : (⟨S_, .f32⟩ : BufTy).Contents (Elt F) → (⟨S100000x16, .f32⟩ : BufTy).Contents (Elt F)),
    binary main_v20 main_call0_v0 main_v21 (maximumf : (⟨S100000x16, .f32⟩ : BufTy).Contents (Elt F) → (⟨S100000x16, .f32⟩ : BufTy).Contents (Elt F) → (⟨S100000x16, .f32⟩ : BufTy).Contents (Elt F)),
    binary main_v21 main_arg5 main_v22 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_1 (constantI S_ 32 0#32),
    unary main_c_1 main_v23 (broadcastInDim S3200000 ![] bcast_S_S3200000 : (⟨S_, .i32⟩ : BufTy).Contents (Elt F) → (⟨S3200000, .i32⟩ : BufTy).Contents (Elt F)),
    binary main_v1 main_v23 main_v24 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v25 (broadcastInDim S3200000 ![] bcast_S_S3200000 : (⟨S_, .i32⟩ : BufTy).Contents (Elt F) → (⟨S3200000, .i32⟩ : BufTy).Contents (Elt F)),
    binary main_v1 main_v25 main_v26 (addi : (⟨S3200000, .i32⟩ : BufTy).Contents (Elt F) → (⟨S3200000, .i32⟩ : BufTy).Contents (Elt F) → (⟨S3200000, .i32⟩ : BufTy).Contents (Elt F)),
    ternary main_v24 main_v26 main_v1 main_v27 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v27 main_v28 (broadcastInDim S3200000x1 ![0] bcast_S3200000_S3200000x1_0 : (⟨S3200000, .i32⟩ : BufTy).Contents (Elt F) → (⟨S3200000x1, .i32⟩ : BufTy).Contents (Elt F)),
    binary main_v22 main_v28 main_v29 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    unary main_arg2 main_v30 (broadcastInDim S3200000x1 ![0] bcast_S3200000_S3200000x1_0 : (⟨S3200000, .f32⟩ : BufTy).Contents (Elt F) → (⟨S3200000x1, .f32⟩ : BufTy).Contents (Elt F)),
    unary main_v30 main_v31 (broadcastInDim S3200000x40 ![0, 1] bcast_S3200000x1_S3200000x40_0_1 : (⟨S3200000x1, .f32⟩ : BufTy).Contents (Elt F) → (⟨S3200000x40, .f32⟩ : BufTy).Contents (Elt F)),
    binary main_v29 main_v31 main_v32 (mulf : (⟨S3200000x40, .f32⟩ : BufTy).Contents (Elt F) → (⟨S3200000x40, .f32⟩ : BufTy).Contents (Elt F) → (⟨S3200000x40, .f32⟩ : BufTy).Contents (Elt F)),
    nullary main_cst_3 (constant S_ .f32 0x00000000#32),
    unary main_cst_3 main_v33 (broadcastInDim S100000x40 ![] bcast_S_S100000x40 : (⟨S_, .f32⟩ : BufTy).Contents (Elt F) → (⟨S100000x40, .f32⟩ : BufTy).Contents (Elt F)),
    unary main_v3 main_v34 (broadcastInDim S3200000x1 ![0] bcast_S3200000_S3200000x1_0 : (⟨S3200000, .i32⟩ : BufTy).Contents (Elt F) → (⟨S3200000x1, .i32⟩ : BufTy).Contents (Elt F)),
    ternary main_v33 main_v34 main_v32 main_v35 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    unary main_arg6 main_v36 (broadcastInDim S1x40 ![1] bcast_S40_S1x40_1 : (⟨S40, .f32⟩ : BufTy).Contents (Elt F) → (⟨S1x40, .f32⟩ : BufTy).Contents (Elt F)),
    unary main_v36 main_v37 (broadcastInDim S100000x40 ![0, 1] bcast_S1x40_S100000x40_0_1 : (⟨S1x40, .f32⟩ : BufTy).Contents (Elt F) → (⟨S100000x40, .f32⟩ : BufTy).Contents (Elt F)),
    binary main_v35 main_v37 main_v38 (addf : (⟨S100000x40, .f32⟩ : BufTy).Contents (Elt F) → (⟨S100000x40, .f32⟩ : BufTy).Contents (Elt F) → (⟨S100000x40, .f32⟩ : BufTy).Contents (Elt F)),
    nullary main_call1_cst (constant S_ .f32 0xFF800000#32),
    binary main_v38 main_call1_cst main_call1_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call1_cst_0 (constant S_ .f32 0xFF800000#32),
    unary main_call1_cst_0 main_call1_v1 (broadcastInDim S100000 ![] bcast_S_S100000 : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 (broadcastInDim S100000x1 ![0] bcast_S100000_S100000x1_0 : (⟨S100000, .f32⟩ : BufTy).Contents (Elt F) → (⟨S100000x1, .f32⟩ : BufTy).Contents (Elt F)),
    unary main_call1_v3 main_call1_v4 (broadcastInDim S100000x40 ![0, 1] bcast_S100000x1_S100000x40_0_1 : (⟨S100000x1, .f32⟩ : BufTy).Contents (Elt F) → (⟨S100000x40, .f32⟩ : BufTy).Contents (Elt F)),
    binary main_v38 main_call1_v4 main_call1_v5 (subf : (⟨S100000x40, .f32⟩ : BufTy).Contents (Elt F) → (⟨S100000x40, .f32⟩ : BufTy).Contents (Elt F) → (⟨S100000x40, .f32⟩ : BufTy).Contents (Elt F)),
    unary main_call1_v5 main_call1_v6 (Host.exp : (⟨S100000x40, .f32⟩ : BufTy).Contents (Elt F) → (⟨S100000x40, .f32⟩ : BufTy).Contents (Elt F)),
    nullary main_call1_cst_1 (constant S_ .f32 0x00000000#32),
    binary main_call1_v6 main_call1_cst_1 main_call1_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call1_v7 main_call1_v8 (broadcastInDim S100000x1 ![0] bcast_S100000_S100000x1_0 : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 (broadcastInDim S100000x40 ![0, 1] bcast_S100000x1_S100000x40_0_1 : (⟨S100000x1, .f32⟩ : BufTy).Contents (Elt F) → (⟨S100000x40, .f32⟩ : BufTy).Contents (Elt F)),
    binary main_call1_v5 main_call1_v10 main_v39 (subf : (⟨S100000x40, .f32⟩ : BufTy).Contents (Elt F) → (⟨S100000x40, .f32⟩ : BufTy).Contents (Elt F) → (⟨S100000x40, .f32⟩ : BufTy).Contents (Elt F)) ]

theorem ops_eq : (ops : List (HloOp τ sig (Elt F))) = opsA ++ (opsB ++ (opsC ++ (opsD ++ opsE))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of @main terminates without a fault, each buffer ending at what the operations'
    fold leaves in it from the launch memory. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- Two rows of operations one after the other fold as the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section Stretches

variable (V : Valuation τ sig (Elt F))

/-! ### The first stretch -/

theorem A_v1 : after opsA V (Proc.devRef .tc main_v1) = srcNodes (V (Proc.devRef .tc main_arg1)) := by
  after_results
  rfl
theorem A_v3 : after opsA V (Proc.devRef .tc main_v3) = dstNodes (V (Proc.devRef .tc main_arg1)) := by
  after_results
  rfl
theorem A_v4 : after opsA V (Proc.devRef .tc main_v4)
    = Host.dotGeneral dot_S100000x256_S256x16_S100000x16_1_0_0_1_n_n none (V (Proc.devRef .tc main_arg0))
        (V (Proc.devRef .tc main_arg3)) := by
  after_results
theorem A_arg2 : after opsA V (Proc.devRef .tc main_arg2) = V (Proc.devRef .tc main_arg2) := by
  after_results
theorem A_arg4 : after opsA V (Proc.devRef .tc main_arg4) = V (Proc.devRef .tc main_arg4) := by
  after_results
theorem A_arg5 : after opsA V (Proc.devRef .tc main_arg5) = V (Proc.devRef .tc main_arg5) := by
  after_results
theorem A_arg6 : after opsA V (Proc.devRef .tc main_arg6) = V (Proc.devRef .tc main_arg6) := by
  after_results

/-! ### The second stretch: a message-passing step -/

theorem B_v17 : after opsB V (Proc.devRef .tc main_v17)
    = aggregate16 (V (Proc.devRef .tc main_v4)) (V (Proc.devRef .tc main_v1)) (V (Proc.devRef .tc main_v3))
        (weightCol (V (Proc.devRef .tc main_arg2))) := by
  after_results
  rfl
theorem B_v1 : after opsB V (Proc.devRef .tc main_v1) = V (Proc.devRef .tc main_v1) := by
  after_results
theorem B_v3 : after opsB V (Proc.devRef .tc main_v3) = V (Proc.devRef .tc main_v3) := by
  after_results
theorem B_arg2 : after opsB V (Proc.devRef .tc main_arg2) = V (Proc.devRef .tc main_arg2) := by
  after_results
theorem B_arg4 : after opsB V (Proc.devRef .tc main_arg4) = V (Proc.devRef .tc main_arg4) := by
  after_results
theorem B_arg5 : after opsB V (Proc.devRef .tc main_arg5) = V (Proc.devRef .tc main_arg5) := by
  after_results
theorem B_arg6 : after opsB V (Proc.devRef .tc main_arg6) = V (Proc.devRef .tc main_arg6) := by
  after_results

/-! ### The third stretch: bias, rectifier, product -/

theorem C_v22 : after opsC V (Proc.devRef .tc main_v22)
    = hiddenTerm (V (Proc.devRef .tc main_v17)) (V (Proc.devRef .tc main_arg4)) (V (Proc.devRef .tc main_arg5)) := by
  after_results
  unfold hiddenTerm
  with_reducible rfl
theorem C_v1 : after opsC V (Proc.devRef .tc main_v1) = V (Proc.devRef .tc main_v1) := by
  after_results
theorem C_v3 : after opsC V (Proc.devRef .tc main_v3) = V (Proc.devRef .tc main_v3) := by
  after_results
theorem C_arg2 : after opsC V (Proc.devRef .tc main_arg2) = V (Proc.devRef .tc main_arg2) := by
  after_results
theorem C_arg6 : after opsC V (Proc.devRef .tc main_arg6) = V (Proc.devRef .tc main_arg6) := by
  after_results

/-! ### The fourth stretch: a message-passing step -/

theorem D_v35 : after opsD V (Proc.devRef .tc main_v35)
    = aggregate40 (V (Proc.devRef .tc main_v22)) (V (Proc.devRef .tc main_v1)) (V (Proc.devRef .tc main_v3))
        (weightCol (V (Proc.devRef .tc main_arg2))) := by
  after_results
  rfl
theorem D_arg6 : after opsD V (Proc.devRef .tc main_arg6) = V (Proc.devRef .tc main_arg6) := by
  after_results

/-! ### The fifth stretch: bias and log-softmax -/

theorem E_v39 : after opsE V (Proc.devRef .tc main_v39)
    = headTerm (V (Proc.devRef .tc main_v35)) (V (Proc.devRef .tc main_arg6)) := by
  after_results
  unfold headTerm shiftedTerm
  with_reducible rfl

end Stretches

/-- The result buffer after the 62 operations, from any contents `V`: the reference's term of the seven arguments. -/
theorem result (V : Valuation τ sig (Elt F)) :
    after ops V (Proc.devRef .tc main_v39)
      = headTerm
          (aggregate40
            (hiddenTerm
              (aggregate16
                (Host.dotGeneral dot_S100000x256_S256x16_S100000x16_1_0_0_1_n_n none (V (Proc.devRef .tc main_arg0))
                  (V (Proc.devRef .tc main_arg3)))
                (srcNodes (V (Proc.devRef .tc main_arg1))) (dstNodes (V (Proc.devRef .tc main_arg1)))
                (weightCol (V (Proc.devRef .tc main_arg2))))
              (V (Proc.devRef .tc main_arg4)) (V (Proc.devRef .tc main_arg5)))
            (srcNodes (V (Proc.devRef .tc main_arg1))) (dstNodes (V (Proc.devRef .tc main_arg1)))
            (weightCol (V (Proc.devRef .tc main_arg2))))
          (V (Proc.devRef .tc main_arg6)) := by
  rw [ops_eq, after_append, after_append, after_append, after_append]
  rw [E_v39, D_v35, D_arg6, C_v22, C_v1, C_v3, C_arg2, C_arg6, B_v17, B_v1, B_v3, B_arg2, B_arg4, B_arg5, B_arg6,
    A_v1, A_v3, A_v4, A_arg2, A_arg4, A_arg5, A_arg6]

/-! ### No operation writes an argument -/

theorem kept_arg0 (V : Valuation τ sig (Elt F)) :
    after ops V (Proc.devRef .tc main_arg0) = V (Proc.devRef .tc main_arg0) := by
  after_results_simp
theorem kept_arg1 (V : Valuation τ sig (Elt F)) :
    after ops V (Proc.devRef .tc main_arg1) = V (Proc.devRef .tc main_arg1) := by
  after_results_simp
theorem kept_arg2 (V : Valuation τ sig (Elt F)) :
    after ops V (Proc.devRef .tc main_arg2) = V (Proc.devRef .tc main_arg2) := by
  after_results_simp
theorem kept_arg3 (V : Valuation τ sig (Elt F)) :
    after ops V (Proc.devRef .tc main_arg3) = V (Proc.devRef .tc main_arg3) := by
  after_results_simp
theorem kept_arg4 (V : Valuation τ sig (Elt F)) :
    after ops V (Proc.devRef .tc main_arg4) = V (Proc.devRef .tc main_arg4) := by
  after_results_simp
theorem kept_arg5 (V : Valuation τ sig (Elt F)) :
    after ops V (Proc.devRef .tc main_arg5) = V (Proc.devRef .tc main_arg5) := by
  after_results_simp
theorem kept_arg6 (V : Valuation τ sig (Elt F)) :
    after ops V (Proc.devRef .tc main_arg6) = V (Proc.devRef .tc main_arg6) := by
  after_results_simp

end Cert.ReferenceIdeal.Hand

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.RefRead.lean ====
/-
  The reference's three dense stages, entry by entry, on the extended reals.

  Between the message-passing steps the reference computes a matrix product, a bias, a rectifier and a second
  product, and at the end a bias and a log-softmax, all as host operations on whole arrays. Read at an index:
  the host's matrix product of an [a, n] by an [n, b] array is, at (p, q), the sum over k of the left entry
  (p, k) times the right entry (k, q); a bias vector placed as a row and repeated down the rows holds, at (p, c),
  its entry c; a row maximum or a row sum kept as a column and repeated along the row holds, at (p, c), row p's
  value; and the reference's extra maximum against the value its row maximum started from changes nothing, a fold
  of `max` being at least its start. So the three stages are the functions `dense1`, `dense2` and `logSoftmaxRows`
  of the arrays they read, and the reference's result term is the network.
-/
import proofs.«114106_j53712861003990_2_alg».proof.Proof.RefTerms
import proofs.«114106_j53712861003990_2_alg».proof.Proof.Glue
import proofs.«114106_j53712861003990_2_alg».proof.Proof.LibRowColDot
import proofs.«114106_j53712861003990_2_alg».proof.Proof.LibHostRowReads
import proofs.«114106_j53712861003990_2_alg».proof.Proof.LibHostRowMax
import Idealize.ShloMosaic.Lib.ValueIdx
import Idealize.ShloMosaic.Lib.IdealHost
import Idealize.ShloMosaic.Lib.KernelVsHost

noncomputable section

-- The host's reduce is a fold over every index of its operand, four million of them here. What follows uses one
-- fact about it only: over one axis it is, at each row, the fold of its body over that row's entries.
attribute [local irreducible] Idealize.ShloMosaic.Host.reduce

namespace Cert.ReferenceIdeal.Hand

open Cert.ReferenceIdeal Cert.ReferenceIdeal.Gen Idealize.ShloMosaic Idealize.ShloMosaic.ValueIdx
open Cert.KernelIdeal.Glue (srcNodes dstNodes weightCol aggregate16 aggregate40)

/-! ## The two products' dimension numbers keep the output's row on the left and its column on the right -/

theorem dot1_lhs_row (i : S100000x16.Idx) (q : dot_S100000x256_S256x16_S100000x16_1_0_0_1_n_n.contr.Idx) : (dot_S100000x256_S256x16_S100000x16_1_0_0_1_n_n.lhsIdx i q 0).val = (i 0).val := by
  unfold DotDims.lhsIdx
  rw [dif_neg (show ¬(0 : Fin S100000x256.rank) ∈ dot_S100000x256_S256x16_S100000x16_1_0_0_1_n_n.lhsBatch by decide),
    dif_pos (show (0 : Fin S100000x256.rank) ∈ dot_S100000x256_S256x16_S100000x16_1_0_0_1_n_n.lhsNonContracting by decide)]
  rfl
theorem dot1_rhs_col (i : S100000x16.Idx) (q : dot_S100000x256_S256x16_S100000x16_1_0_0_1_n_n.contr.Idx) : (dot_S100000x256_S256x16_S100000x16_1_0_0_1_n_n.rhsIdx i q 1).val = (i 1).val := by
  unfold DotDims.rhsIdx
  rw [dif_neg (show ¬(1 : Fin S256x16.rank) ∈ dot_S100000x256_S256x16_S100000x16_1_0_0_1_n_n.rhsBatch by decide),
    dif_pos (show (1 : Fin S256x16.rank) ∈ dot_S100000x256_S256x16_S100000x16_1_0_0_1_n_n.rhsNonContracting by decide)]
  rfl
theorem dot2_lhs_row (i : S100000x40.Idx) (q : dot_S100000x16_S16x40_S100000x40_1_0_0_1_n_n.contr.Idx) : (dot_S100000x16_S16x40_S100000x40_1_0_0_1_n_n.lhsIdx i q 0).val = (i 0).val := by
  unfold DotDims.lhsIdx
  rw [dif_neg (show ¬(0 : Fin S100000x16.rank) ∈ dot_S100000x16_S16x40_S100000x40_1_0_0_1_n_n.lhsBatch by decide),
    dif_pos (show (0 : Fin S100000x16.rank) ∈ dot_S100000x16_S16x40_S100000x40_1_0_0_1_n_n.lhsNonContracting by decide)]
  rfl
theorem dot2_rhs_col (i : S100000x40.Idx) (q : dot_S100000x16_S16x40_S100000x40_1_0_0_1_n_n.contr.Idx) : (dot_S100000x16_S16x40_S100000x40_1_0_0_1_n_n.rhsIdx i q 1).val = (i 1).val := by
  unfold DotDims.rhsIdx
  rw [dif_neg (show ¬(1 : Fin S16x40.rank) ∈ dot_S100000x16_S16x40_S100000x40_1_0_0_1_n_n.rhsBatch by decide),
    dif_pos (show (1 : Fin S16x40.rank) ∈ dot_S100000x16_S16x40_S100000x40_1_0_0_1_n_n.rhsNonContracting by decide)]
  rfl

/-! ## The feature transform -/

theorem featureTransform_eq (x : (⟨S100000x256, .f32⟩ : BufTy).Contents (Elt Ideal))
    (w : (⟨S256x16, .f32⟩ : BufTy).Contents (Elt Ideal)) :
    Host.dotGeneral (F := Ideal) (φ₁ := .f32) (φ₂ := .f32) dot_S100000x256_S256x16_S100000x16_1_0_0_1_n_n none x w = Cert.Gcn.dense1 x w :=
  funext fun j => Cert.RowColDot.hostDot_rowcol (φ₁ := .f32) (φ₂ := .f32) dot_S100000x256_S256x16_S100000x16_1_0_0_1_n_n rfl rfl rfl rfl
    dot1_lhs_row dot1_rhs_col none x w j

/-! ## The hidden layer -/

/-- A bias vector placed as a row and repeated down 100000 rows, read at (p, k): the bias's entry k. -/
theorem bias16_apply (b : (⟨S16, .f32⟩ : BufTy).Contents (Elt Ideal)) (p : Fin 100000) (k : Fin 16) :
    broadcastInDim S100000x16 ![0, 1] bcast_S1x16_S100000x16_0_1 (broadcastInDim S1x16 ![1] bcast_S16_S1x16_1 b) (ix2 p k)
      = b (ix1 k) :=
  (broadcastInDim_oneRow_apply bcast_S1x16_S100000x16_0_1 _ p k).trans
    (Cert.HostRowMax.broadcastInDim_row_apply b bcast_S16_S1x16_1 0 k)

theorem hidden_eq (a : (⟨S100000x16, .f32⟩ : BufTy).Contents (Elt Ideal)) (b : (⟨S16, .f32⟩ : BufTy).Contents (Elt Ideal))
    (w : (⟨S16x40, .f32⟩ : BufTy).Contents (Elt Ideal)) :
    hiddenTerm (F := Ideal) a b w = Cert.Gcn.dense2 a (fun k => b (ix1 k)) w := by
  funext j
  obtain ⟨p, q, rfl⟩ : ∃ (p : Fin 100000) (q : Fin 40), j = ix2 p q := ⟨j 0, j 1, eq_ix2 j⟩
  unfold hiddenTerm
  refine (Cert.RowColDot.hostDot_rowcol (φ₁ := .f32) (φ₂ := .f32) dot_S100000x16_S16x40_S100000x40_1_0_0_1_n_n rfl rfl rfl rfl
    dot2_lhs_row dot2_rhs_col none _ w (ix2 p q)).trans ?_
  show _ = ∑ k : Fin 16, max (a (ix2 p k) + b (ix1 k)) (Ideal.ofBits .f32 0x00000000#32) * w (ix2 k q)
  refine Finset.sum_congr rfl fun k _ => ?_
  refine congrArg₂ (fun u z => max (a (ix2 p k) + u) z * w (ix2 k q)) (bias16_apply b p k) ?_
  exact broadcastInDim_scalar_apply bcast_S_S100000x16 _ (ix2 p k)

/-! ## The head -/

/-- The host's reduce over the columns drops the column axis: the program's own shape fact, with the result's rank
    noted positive. -/
theorem dropsColumns : S100000x40.Reduces [1] S100000 :=
  reducesTo_S100000x40_S100000_d1.elim fun h1 h2 => ⟨h1, by decide, h2⟩

section Head

variable (z : (⟨S100000x40, .f32⟩ : BufTy).Contents (Elt Ideal)) (p : Fin 100000)

/-- The value the row maximum starts from, read off the splat constant. -/
theorem start_apply (j : S_.Idx) :
    constant (F := Ideal) S_ .f32 0xFF800000#32 j = Ideal.ofBits .f32 0xFF800000#32 :=
  constant_apply _ _

/-- The row maxima kept as a column and repeated along the row, read at (p, c): the fold of `max` over row p. The
    reference takes a maximum of the value the fold started from against the fold; that changes nothing. -/
theorem rowMax_apply (c : Fin 40) :
    broadcastInDim S100000x40 ![0, 1] bcast_S100000x1_S100000x40_0_1
        (broadcastInDim S100000x1 ![0] bcast_S100000_S100000x1_0
          (maximumf (broadcastInDim S100000 ![] bcast_S_S100000 (constant S_ .f32 0xFF800000#32))
            (Host.reduce FloatOps.maximumf z (constant S_ .f32 0xFF800000#32) reducesTo_S100000x40_S100000_d1 h_S_)))
        (ix2 p c)
      = (Finset.univ : Finset (Fin 40)).fold max (Ideal.ofBits .f32 0xFF800000#32) (fun k => z (ix2 p k)) := by
  refine (Cert.HostRowMax.broadcastInDim_cols_apply _ bcast_S100000x1_S100000x40_0_1 p c).trans ?_
  refine (Cert.HostRowReads.broadcastInDim_col_apply _ bcast_S100000_S100000x1_0 p 0).trans ?_
  refine (maximumf_apply _ _ (ix1 p)).trans ?_
  refine (congrArg₂ max
    ((broadcastInDim_scalar_apply bcast_S_S100000 _ (ix1 p)).trans (start_apply _))
    (Cert.HostRowMax.hostReduceMax_row z _ reducesTo_S100000x40_S100000_d1 dropsColumns h_S_ p)).trans ?_
  rw [start_apply]
  exact Cert.Gcn.max_start_fold _ _

/-- A row of logits less its maximum, read at (p, c). -/
theorem shifted_apply (c : Fin 40) :
    shiftedTerm (F := Ideal) z (ix2 p c)
      = z (ix2 p c) - (Finset.univ : Finset (Fin 40)).fold max (Ideal.ofBits .f32 0xFF800000#32) (fun k => z (ix2 p k)) := by
  unfold shiftedTerm
  exact (subf_apply _ _ (ix2 p c)).trans (congrArg (z (ix2 p c) - ·) (rowMax_apply z p c))

/-- The host's exponential and logarithm act entry by entry. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The logarithm of the row sums of the exponentials, kept as a column and repeated along the row, read at (p, c). -/
theorem logSum_apply (c : Fin 40) :
    broadcastInDim S100000x40 ![0, 1] bcast_S100000x1_S100000x40_0_1
        (Host.log (F := Ideal)
          (broadcastInDim S100000x1 ![0] bcast_S100000_S100000x1_0
            (Host.reduceAdd (F := Ideal) (Host.exp (F := Ideal) (shiftedTerm (F := Ideal) z))
              (constant (F := Ideal) S_ .f32 0x00000000#32) reducesTo_S100000x40_S100000_d1 h_S_))) (ix2 p c)
      = Ideal.log (∑ k : Fin 40, Ideal.exp (z (ix2 p k)
          - (Finset.univ : Finset (Fin 40)).fold max (Ideal.ofBits .f32 0xFF800000#32) (fun k => z (ix2 p k)))) := by
  refine (Cert.HostRowMax.broadcastInDim_cols_apply _ bcast_S100000x1_S100000x40_0_1 p c).trans ?_
  refine (hostLog_apply _ (ix2 p (0 : Fin 1))).trans (congrArg Ideal.log ?_)
  refine (Cert.HostRowReads.broadcastInDim_col_apply _ bcast_S100000_S100000x1_0 p 0).trans ?_
  refine (Cert.HostRowReads.hostReduceAdd_row _ _ reducesTo_S100000x40_S100000_d1 dropsColumns h_S_ p).trans ?_
  rw [show constant (F := Ideal) S_ .f32 0x00000000#32 (Shape.Idx.first h_S_) = 0 from
    (constant_apply _ _).trans Ideal.ofBits_zero_f32, zero_add]
  exact Finset.sum_congr rfl fun k _ => (hostExp_apply _ (ix2 p k)).trans (congrArg Ideal.exp (shifted_apply z p k))

end Head

/-- A bias vector placed as a row and repeated down 100000 rows, read at (p, c): the bias's entry c. -/
theorem bias40_apply (b : (⟨S40, .f32⟩ : BufTy).Contents (Elt Ideal)) (p : Fin 100000) (c : Fin 40) :
    broadcastInDim S100000x40 ![0, 1] bcast_S1x40_S100000x40_0_1 (broadcastInDim S1x40 ![1] bcast_S40_S1x40_1 b) (ix2 p c)
      = b (ix1 c) :=
  (broadcastInDim_oneRow_apply bcast_S1x40_S100000x40_0_1 _ p c).trans
    (Cert.HostRowMax.broadcastInDim_row_apply b bcast_S40_S1x40_1 0 c)

theorem head_eq (a : (⟨S100000x40, .f32⟩ : BufTy).Contents (Elt Ideal)) (b : (⟨S40, .f32⟩ : BufTy).Contents (Elt Ideal)) :
    headTerm (F := Ideal) a b = Cert.Gcn.logSoftmaxRows a (fun k => b (ix1 k)) := by
  funext j
  obtain ⟨p, q, rfl⟩ : ∃ (p : Fin 100000) (q : Fin 40), j = ix2 p q := ⟨j 0, j 1, eq_ix2 j⟩
  unfold headTerm
  refine (subf_apply _ _ (ix2 p q)).trans ?_
  rw [shifted_apply _ p q, logSum_apply _ p q]
  have hz : ∀ c : Fin 40,
      addf (F := Ideal) (φ := .f32) a (broadcastInDim S100000x40 ![0, 1] bcast_S1x40_S100000x40_0_1 (broadcastInDim S1x40 ![1] bcast_S40_S1x40_1 b)) (ix2 p c)
        = a (ix2 p c) + b (ix1 c) :=
    fun c => (addf_apply _ _ (ix2 p c)).trans (congrArg (a (ix2 p c) + ·) (bias40_apply b p c))
  simp only [hz]
  rfl

end Cert.ReferenceIdeal.Hand

end
-- ==== Proof.RefValue.lean ====
/-
  The reference's result buffer holds the network of its seven arguments: its run read in five stretches gives the
  result as a term of the arguments, and the three dense stages of that term, read entry by entry, are the network's.
-/
import proofs.«114106_j53712861003990_2_alg».proof.Proof.RefRun
import proofs.«114106_j53712861003990_2_alg».proof.Proof.RefRead

noncomputable section

-- The host's reduce is a fold over every index of its operand, four million of them here. What follows uses one
-- fact about it only: over one axis it is, at each row, the fold of its body over that row's entries.
attribute [local irreducible] Idealize.ShloMosaic.Host.reduce

namespace Cert.ReferenceIdeal.Hand

open Cert.ReferenceIdeal Cert.ReferenceIdeal.Gen Idealize.ShloMosaic Idealize.ShloMosaic.StableHlo

theorem result_eq_network (V : Valuation τ sig (Elt Ideal)) :
    StableHlo.after ops V (Proc.devRef .tc main_v39)
      = Cert.Gcn.network (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [result V, featureTransform_eq, hidden_eq, head_eq]
  rfl

end Cert.ReferenceIdeal.Hand

end
-- ==== Proof.lean ====
/-
  The certificate: a two-layer graph convolution with a log-softmax head, as three kernel regions among host
  operations, against its plain reference.

  Both programs compute, on the extended reals, the same function of the seven arguments (`Cert.Gcn.network`): the
  node features times the first weights; a message-passing step along the edges (each edge reads its source node's
  row, scales it by the edge's weight and adds it into its destination node's row); the first bias, a rectifier
  and the product with the second weights; a second message-passing step; the second bias and a log-softmax of
  each row. The kernel program does the two products and the log-softmax in kernel regions that walk the rows 4000
  at a time, and narrows the products' operands to the matrix unit's format first, which on the extended reals is
  the identity; the reference does everything as host operations on whole arrays. A matrix product is the same sum
  over the contracted axis on the matrix unit (into a zero accumulator) and on the host; a row maximum or a row sum
  is the same fold or sum over the row in a kernel's lane reduction and in the host's reduce; the reference's
  maximum of its row maximum against the value that maximum started from changes nothing; and the message-passing
  steps are the very same operations in both programs, so they are carried as one function and never opened. No
  law used here needs the inputs to be finite: the precondition is not opened.

  The three frame claims are the generated frames (the reference's: its run with the result dropped); the
  idealization rewrote no operation, so `preserves` is trivial.
-/
import proofs.«114106_j53712861003990_2_alg».proof.Defs
import proofs.«114106_j53712861003990_2_alg».proof.Proof.Gen.Kernel
import proofs.«114106_j53712861003990_2_alg».proof.Proof.Gen.Kernel.Skeleton
import proofs.«114106_j53712861003990_2_alg».proof.Proof.Gen.Kernel.Launch
import proofs.«114106_j53712861003990_2_alg».proof.Proof.Gen.Kernel.Points
import proofs.«114106_j53712861003990_2_alg».proof.Proof.Gen.Kernel.Frame
import proofs.«114106_j53712861003990_2_alg».proof.Proof.Gen.KernelIdeal
import proofs.«114106_j53712861003990_2_alg».proof.Proof.Gen.KernelIdeal.Skeleton
import proofs.«114106_j53712861003990_2_alg».proof.Proof.Gen.KernelIdeal.Launch
import proofs.«114106_j53712861003990_2_alg».proof.Proof.Gen.KernelIdeal.Points
import proofs.«114106_j53712861003990_2_alg».proof.Proof.Gen.KernelIdeal.Frame
import proofs.«114106_j53712861003990_2_alg».proof.Proof.Gen.ReferenceIdeal
import proofs.«114106_j53712861003990_2_alg».proof.Proof.Gen.Pre_finite_inputs
import proofs.«114106_j53712861003990_2_alg».proof.Proof.KernelRun
import proofs.«114106_j53712861003990_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference writes none of its arguments: its run, with each argument read back through the 62 operations. -/
theorem frame_referenceIdeal : Cert.frame_ReferenceIdeal := fun m ρ _ =>
  (θ_run Cert.ReferenceIdeal.defs _ _).mono
    (fun _ h c =>
      ⟨(h c Cert.ReferenceIdeal.main_arg0).trans (Cert.ReferenceIdeal.Hand.kept_arg0 _),
       (h c Cert.ReferenceIdeal.main_arg1).trans (Cert.ReferenceIdeal.Hand.kept_arg1 _),
       (h c Cert.ReferenceIdeal.main_arg2).trans (Cert.ReferenceIdeal.Hand.kept_arg2 _),
       (h c Cert.ReferenceIdeal.main_arg3).trans (Cert.ReferenceIdeal.Hand.kept_arg3 _),
       (h c Cert.ReferenceIdeal.main_arg4).trans (Cert.ReferenceIdeal.Hand.kept_arg4 _),
       (h c Cert.ReferenceIdeal.main_arg5).trans (Cert.ReferenceIdeal.Hand.kept_arg5 _),
       (h c Cert.ReferenceIdeal.main_arg6).trans (Cert.ReferenceIdeal.Hand.kept_arg6 _)⟩)
    (Cert.ReferenceIdeal.Hand.run (F := Ideal) m ρ)

/-- From memories agreeing on the arguments both programs end with the network of the arguments in their result
    buffers. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Whole.run m ρ, ?_⟩
  refine (θ_run Cert.ReferenceIdeal.defs _ _).mono (fun _ h c => ?_) (Cert.ReferenceIdeal.Hand.run (F := Ideal) m' ρ')
  obtain ⟨e0, e1, e2, e3, e4, e5, e6⟩ := hagree c
  refine ⟨?_, (h c Cert.ReferenceIdeal.main_arg0).trans (Cert.ReferenceIdeal.Hand.kept_arg0 _),
    (h c Cert.ReferenceIdeal.main_arg1).trans (Cert.ReferenceIdeal.Hand.kept_arg1 _),
    (h c Cert.ReferenceIdeal.main_arg2).trans (Cert.ReferenceIdeal.Hand.kept_arg2 _),
    (h c Cert.ReferenceIdeal.main_arg3).trans (Cert.ReferenceIdeal.Hand.kept_arg3 _),
    (h c Cert.ReferenceIdeal.main_arg4).trans (Cert.ReferenceIdeal.Hand.kept_arg4 _),
    (h c Cert.ReferenceIdeal.main_arg5).trans (Cert.ReferenceIdeal.Hand.kept_arg5 _),
    (h c Cert.ReferenceIdeal.main_arg6).trans (Cert.ReferenceIdeal.Hand.kept_arg6 _)⟩
  refine (h c Cert.ReferenceIdeal.main_v39).trans ((Cert.ReferenceIdeal.Hand.result_eq_network _).trans ?_)
  show Cert.Gcn.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
